-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S112x16 : Shape := ⟨2, ![112, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S112x16 : S_.BroadcastsInDim S112x16 (![] : Fin 0 → Fin S112x16.rank)
  reducesTo_S112x16_S_d0_1 : S112x16.ReducesTo [0, 1] S_

variable [Facts]

def fn_part2 {F : FTy → Type} [FloatOps F] (main_arg8 : FVec F S112x16 .f32) (main_arg9 : FVec F S16 .f32) (main_v33 : IVec S_ 1) : IVec S_ 1 :=
  let main_v34 : FVec F S112x16 .f32 := Host.absf main_arg8
  let main_cst_12 : FVec F S_ .f32 := constant S_ .f32 0x7F800000#32
  let main_v35 : FVec F S112x16 .f32 := broadcastInDim S112x16 ![] bcast_S_S112x16 main_cst_12
  let main_v36 : IVec S112x16 1 := cmpf .olt main_v34 main_v35
  let main_c_13 : IVec S_ 1 := constantI S_ 1 1#1
  let main_v37 : IVec S_ 1 := (fun x v => Host.reduce IntOp.andi x v reducesTo_S112x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S32 .f32) (main_arg6 : FVec F S32x16 .f32) (main_arg7 : FVec F S16 .f32) (main_arg8 : FVec F S112x16 .f32) (main_arg9 : FVec F S16 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : IVec S2x1600000 32) (main_arg1 : FVec F S100000x128 .f32) (main_arg2 : FVec F S128x64 .f32) (main_arg3 : FVec F S64 .f32) (main_arg4 : FVec F S64x32 .f32) (main_arg5 : FVec F S32 .f32) (main_arg6 : FVec F S32x16 .f32) (main_arg7 : FVec F S16 .f32) (main_arg8 : FVec F S112x16 .f32) (main_arg9 : FVec F S16 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_v13 main_v16
-- ==== Kernel.lean ====
abbrev S2x1600000 : Shape := ⟨2, ![2, 1600000]⟩
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S112x16 : Shape := ⟨2, ![112, 16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩
abbrev S100000x16 : Shape := ⟨2, ![100000, 16]⟩
abbrev S10000x16 : Shape := ⟨2, ![10000, 16]⟩
abbrev S1700000x16 : Shape := ⟨2, ![1700000, 16]⟩
abbrev S1x16 : Shape := ⟨2, ![1, 16]⟩
abbrev S100000x112 : Shape := ⟨2, ![100000, 112]⟩
abbrev S10000x112 : Shape := ⟨2, ![10000, 112]⟩

abbrev nBuf : Space → Nat
  | .hbm => 122
  | .vmem => 21
  | .smem => 0
  | _ => 0

abbrev bufTy : (tb : Table) → Fin (tcTables nBuf tb) → BufTy
  | .hbm, ⟨0, _⟩ => ⟨S2x1600000, .i32⟩
  | .hbm, ⟨1, _⟩ => ⟨S100000x128, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S112x16, .f32⟩
  | .hbm, ⟨9, _⟩ => ⟨S16, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x32, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x32, .f32⟩
  | .hbm, ⟨83, _⟩ => ⟨S1700000x1, .f32⟩
  | .hbm, ⟨84, _⟩ => ⟨S1700000x32, .f32⟩
  | .hbm, ⟨85, _⟩ => ⟨S1700000x32, .f32⟩
  | .hbm, ⟨86, _⟩ => ⟨S_, .f32⟩
  | .hbm, ⟨87, _⟩ => ⟨S100000x32, .f32⟩
  | .hbm, ⟨88, _⟩ => ⟨S1700000x1, .i32⟩
  | .hbm, ⟨89, _⟩ => ⟨S100000x32, .f32⟩
  | .hbm, ⟨90, _⟩ => ⟨S1x32, .f32⟩
  | .hbm, ⟨91, _⟩ => ⟨S100000x32, .f32⟩
  | .hbm, ⟨92, _⟩ => ⟨S100000x32, .f32⟩
  | .hbm, ⟨93, _⟩ => ⟨S_, .f32⟩
  | .hbm, ⟨94, _⟩ => ⟨S100000x32, .f32⟩
  | .hbm, ⟨95, _⟩ => ⟨S100000x32, .f32⟩
  | .hbm, ⟨96, _⟩ => ⟨S100000x16, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x16, .f32⟩
  | .hbm, ⟨106, _⟩ => ⟨S1700000x1, .f32⟩
  | .hbm, ⟨107, _⟩ => ⟨S1700000x16, .f32⟩
  | .hbm, ⟨108, _⟩ => ⟨S1700000x16, .f32⟩
  | .hbm, ⟨109, _⟩ => ⟨S_, .f32⟩
  | .hbm, ⟨110, _⟩ => ⟨S100000x16, .f32⟩
  | .hbm, ⟨111, _⟩ => ⟨S1700000x1, .i32⟩
  | .hbm, ⟨112, _⟩ => ⟨S100000x16, .f32⟩
  | .hbm, ⟨113, _⟩ => ⟨S1x16, .f32⟩
  | .hbm, ⟨114, _⟩ => ⟨S100000x16, .f32⟩
  | .hbm, ⟨115, _⟩ => ⟨S100000x16, .f32⟩
  | .hbm, ⟨116, _⟩ => ⟨S_, .f32⟩
  | .hbm, ⟨117, _⟩ => ⟨S100000x16, .f32⟩
  | .hbm, ⟨118, _⟩ => ⟨S100000x16, .f32⟩
  | .hbm, ⟨119, _⟩ => ⟨S100000x112, .f32⟩
  | .hbm, ⟨120, _⟩ => ⟨S1x16, .f32⟩
  | .hbm, ⟨121, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x16, .f32⟩
  | .local _ .vmem, ⟨13, _⟩ => ⟨S10000x16, .f32⟩
  | .local _ .vmem, ⟨14, _⟩ => ⟨S10000x16, .f32⟩
  | .local _ .vmem, ⟨15, _⟩ => ⟨S10000x112, .f32⟩
  | .local _ .vmem, ⟨16, _⟩ => ⟨S10000x112, .f32⟩
  | .local _ .vmem, ⟨17, _⟩ => ⟨S112x16, .f32⟩
  | .local _ .vmem, ⟨18, _⟩ => ⟨S1x16, .f32⟩
  | .local _ .vmem, ⟨19, _⟩ => ⟨S10000x16, .f32⟩
  | .local _ .vmem, ⟨20, _⟩ => ⟨S10000x16, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x112 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S112x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S10000x32_S10000x32 : S10000x32.ShapeCasts S10000x32
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  concatenates_S100000x64_S100000x32_S100000x16_S100000x112_d1 : Shape.Concatenates [S100000x64, S100000x32, S100000x16] S100000x112 1
  shapeCasts_S16_S1x16 : S16.ShapeCasts S1x16
  inb_S10000x112_S10000x112_0_0 : ∀ a, (![0, 0] : Fin 2 → Nat) a + S10000x112.size a ≤ S10000x112.size a
  h_S10000x112 : 0 < S10000x112.numel
  shapeCasts_S10000x112_S10000x112 : S10000x112.ShapeCasts S10000x112
  inb_S112x16_S112x16_0_0 : ∀ a, (![0, 0] : Fin 2 → Nat) a + S112x16.size a ≤ S112x16.size a
  h_S112x16 : 0 < S112x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x16_S10000x16_1_0_0_1_n_n_wf : DotDims.WF S10000x32 S32x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S10000x112_S112x16_S10000x16_1_0_0_1_n_n_wf : DotDims.WF S10000x112 S112x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x112.size a ≤ S100000x112.size a
  hwx3_0 : ∀ i : grid3.Coords, EltTy.bits .f32 = 32 ∨ (Rect.block (s := S100000x112) S10000x112.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S112x16.size a ≤ S112x16.size a
  hwx3_1 : ∀ i : grid3.Coords, EltTy.bits .f32 = 32 ∨ (Rect.block (s := S112x16) S112x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x16.size a ≤ S100000x16.size a
  hwx3_3 : ∀ i : grid3.Coords, EltTy.bits .f32 = 32 ∨ (Rect.block (s := S100000x16) S10000x16.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S10000x112_S112x16_S10000x16_1_0_0_1_n_n : DotDims S10000x112 S112x16 S10000x16 where
  lhsContracting := [1]
  rhsContracting := [0]
  lhsNonContracting := [0]
  rhsNonContracting := [1]
  lhsBatch := []
  rhsBatch := []
  wf := dot_S10000x112_S112x16_S10000x16_1_0_0_1_n_n_wf

abbrev win0_0 : Pipeline.Window sig grid0 :=
  Pipeline.Window.ofSpec (Memref.whole main_arg1) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v84) S10000x112.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S112x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v85) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S10000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S2x1600000 : Shape := ⟨2, ![2, 1600000]⟩
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S112x16 : Shape := ⟨2, ![112, 16]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S100000x16 : Shape := ⟨2, ![100000, 16]⟩
abbrev S1700000x16 : Shape := ⟨2, ![1700000, 16]⟩
abbrev S1x16 : Shape := ⟨2, ![1, 16]⟩
abbrev S100000x112 : Shape := ⟨2, ![100000, 112]⟩

abbrev nBuf : Space → Nat
  | .hbm => 199
  | .vmem => 0
  | .smem => 0
  | _ => 0

abbrev hbmTy0_0 (i : Nat) : BufTy := match i % 128 with
  | 0 => ⟨S2x1600000, .i32⟩
  | 1 => ⟨S100000x128, .f32⟩
  | 2 => ⟨S128x64, .f32⟩
  | 3 => ⟨S64, .f32⟩
  | 4 => ⟨S64x32, .f32⟩
  | 5 => ⟨S32, .f32⟩
  | 6 => ⟨S32x16, .f32⟩
  | 7 => ⟨S16, .f32⟩
  | 8 => ⟨S112x16, .f32⟩
  | 9 => ⟨S16, .f32⟩
  | 10 => ⟨S1x1600000, .i32⟩
  | 11 => ⟨S1600000, .i32⟩
  | 12 => ⟨S1x1600000, .i32⟩
  | 13 => ⟨S1600000, .i32⟩
  | 14 => ⟨S100000x64, .f32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x32, .f32⟩
  | 74 => ⟨S100000, .i32⟩
  | 75 => ⟨S1700000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x32, .f32⟩
  | 119 => ⟨S1700000x1, .f32⟩
  | 120 => ⟨S1700000x32, .f32⟩
  | 121 => ⟨S1700000x32, .f32⟩
  | 122 => ⟨S_, .f32⟩
  | 123 => ⟨S100000x32, .f32⟩
  | 124 => ⟨S1700000x1, .i32⟩
  | 125 => ⟨S100000x32, .f32⟩
  | 126 => ⟨S1x32, .f32⟩
  | 127 => ⟨S100000x32, .f32⟩
  | _ => ⟨S2x1600000, .i32⟩

abbrev hbmTy0_1 (i : Nat) : BufTy := match i % 128 with
  | 0 => ⟨S100000x32, .f32⟩
  | 1 => ⟨S_, .f32⟩
  | 2 => ⟨S100000x32, .f32⟩
  | 3 => ⟨S100000x32, .f32⟩
  | 4 => ⟨S100000x16, .f32⟩
  | 5 => ⟨S100000, .i32⟩
  | 6 => ⟨S1700000, .i32⟩
  | 7 => ⟨S1700000, .i32⟩
  | 8 => ⟨S_, .f32⟩
  | 9 => ⟨S1700000, .f32⟩
  | 10 => ⟨S_, .f32⟩
  | 11 => ⟨S100000, .f32⟩
  | 12 => ⟨S1700000x1, .i32⟩
  | 13 => ⟨S100000, .f32⟩
  | 14 => ⟨S_, .f32⟩
  | 15 => ⟨S100000, .f32⟩
  | 16 => ⟨S100000, .i1⟩
  | 17 => ⟨S100000, .f32⟩
  | 18 => ⟨S_, .f32⟩
  | 19 => ⟨S_, .f32⟩
  | 20 => ⟨S100000, .f32⟩
  | 21 => ⟨S100000, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S1700000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000x16, .f32⟩
  | 50 => ⟨S1700000x1, .f32⟩
  | 51 => ⟨S1700000x16, .f32⟩
  | 52 => ⟨S1700000x16, .f32⟩
  | 53 => ⟨S_, .f32⟩
  | 54 => ⟨S100000x16, .f32⟩
  | 55 => ⟨S1700000x1, .i32⟩
  | 56 => ⟨S100000x16, .f32⟩
  | 57 => ⟨S1x16, .f32⟩
  | 58 => ⟨S100000x16, .f32⟩
  | 59 => ⟨S100000x16, .f32⟩
  | 60 => ⟨S_, .f32⟩
  | 61 => ⟨S100000x16, .f32⟩
  | 62 => ⟨S100000x16, .f32⟩
  | 63 => ⟨S100000x112, .f32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_c_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_17 : Ref sig .tc := ⟨.hbm, 110, rfl⟩
abbrev main_v75 : Ref sig .tc := ⟨.hbm, 111, rfl⟩
abbrev main_v76 : Ref sig .tc := ⟨.hbm, 112, rfl⟩
abbrev main_c_18 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_19 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_call3_cst : Ref sig .tc := ⟨.hbm, 129, rfl⟩
abbrev main_call3_v0 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_20 : Ref sig .tc := ⟨.hbm, 136, rfl⟩
abbrev main_v96 : Ref sig .tc := ⟨.hbm, 137, rfl⟩
abbrev main_cst_21 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_22 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_23 : Ref sig .tc := ⟨.hbm, 146, rfl⟩
abbrev main_call4_v0 : Ref sig .tc := ⟨.hbm, 147, rfl⟩
abbrev main_call4_v1 : Ref sig .tc := ⟨.hbm, 148, rfl⟩
abbrev main_v103 : Ref sig .tc := ⟨.hbm, 149, rfl⟩
abbrev main_c_24 : Ref sig .tc := ⟨.hbm, 150, rfl⟩
abbrev main_v104 : Ref sig .tc := ⟨.hbm, 151, rfl⟩
abbrev main_v105 : Ref sig .tc := ⟨.hbm, 152, rfl⟩
abbrev main_c_25 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_c_26 : Ref sig .tc := ⟨.hbm, 159, rfl⟩
abbrev main_v111 : Ref sig .tc := ⟨.hbm, 160, rfl⟩
abbrev main_v112 : Ref sig .tc := ⟨.hbm, 161, rfl⟩
abbrev main_c_27 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_c_28 : Ref sig .tc := ⟨.hbm, 169, rfl⟩
abbrev main_v119 : Ref sig .tc := ⟨.hbm, 170, rfl⟩
abbrev main_v120 : Ref sig .tc := ⟨.hbm, 171, rfl⟩
abbrev main_c_29 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_30 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_call5_cst : Ref sig .tc := ⟨.hbm, 188, rfl⟩
abbrev main_call5_v0 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_call6_cst : Ref sig .tc := ⟨.hbm, 196, rfl⟩
abbrev main_call6_v0 : Ref sig .tc := ⟨.hbm, 197, rfl⟩
abbrev main_v141 : Ref sig .tc := ⟨.hbm, 198, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  concatenates_S100000x64_S100000x32_S100000x16_S100000x112_d1 : Shape.Concatenates [S100000x64, S100000x32, S100000x16] S100000x112 1
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x16_S100000x16_1_0_0_1_n_n_wf : DotDims.WF S100000x32 S32x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x112_S112x16_S100000x16_1_0_0_1_n_n_wf : DotDims.WF S100000x112 S112x16 S100000x16 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x112_S112x16_S100000x16_1_0_0_1_n_n : DotDims S100000x112 S112x16 S100000x16 where
  lhsContracting := [1]
  rhsContracting := [0]
  lhsNonContracting := [0]
  rhsNonContracting := [1]
  lhsBatch := []
  rhsBatch := []
  wf := dot_S100000x112_S112x16_S100000x16_1_0_0_1_n_n_wf

class Facts : Prop extends Facts₀ where

variable [Facts]
-- ==== Proof.K.Reg0.lean ====
/- Region 0 of @main, at a parameter `V` — the TensorCore's buffer contents when the region is entered —: each window's
   block at a grid point, what the body leaves in the output window's staging buffer as a function of the input
   blocks (the product of the row block (rounded to bf16) with the weights (rounded to bf16), accumulated in f32 from zero), the body's triple on whole staging
   memrefs, the pipeline's proof data at `V`, and the body obligation at every point. Everything is stated at an
   arbitrary float instance `F`. -/
import proofs.«109125_j11793980195110_1_alg».proof.Proof.Gen.Kernel.Launch
import proofs.«109125_j11793980195110_1_alg».proof.Proof.Gen.Kernel.Skeleton
import proofs.«109125_j11793980195110_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle whose long axis has 10000 coordinates recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the part of its array, as the region finds it (`V`), that the window's index
    map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block of the left operand): its current staging buffer holds its block at every point, whether the
    pipeline fetched it there or not — unfetched, the block index has not moved since the point before, so the buffer
    still holds the same block. For any proof data whose array is `V`'s (`hA`) and whose body leaves the block in
    place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight matrix): its current staging buffer holds its block at every point, whether the
    pipeline fetched it there or not — unfetched, the block index has not moved since the point before, so the buffer
    still holds the same block. For any proof data whose array is `V`'s (`hA`) and whose body leaves the block in
    place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S10000x64 := Rect.unit (s := S10000x64) ![0, 0] S10000x64.size inb_S10000x64_S10000x64_0_0

/-! ## What the body leaves in the output window's buffer -/

/-- Window 2's staging buffer after the body, from the input blocks: its one store, over the whole buffer, of
    the product of the row block (rounded to bf16) with the weights (rounded to bf16), accumulated in f32 from zero. -/
def out0_2 (x0 : Vec F S10000x128 .f32) (x1 : Vec F S128x64 .f32) : Vec F S10000x64 .f32 :=
  View.canon [⟨r0_2, k0_pay1 (View.ld x0 r0_0) (View.ld x1 r0_1)⟩]

/-- The one store's rectangle is the whole buffer, so it covers it. -/
theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

/-! ## The body's triple -/

set_option maxHeartbeats 1000000 in
/-- The body on whole staging memrefs, the inputs' reading `xW` and the output's holding anything (the body loads it
    once before the store and uses nothing of what it read), runs to the continuation with the inputs' as they were
    and the output's reading `out0_2` of the inputs. -/
theorem sound_kernel0 (c : Dev nD) (E : Set ℕ) (i : grid0.Coords) (arg1 : Memref sig .tc .vmem S10000x128 .f32) (harg1 : arg1.IsWhole) (arg2 : Memref sig .tc .vmem S128x64 .f32) (harg2 : arg2.IsWhole) (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer still at its block and the output's at `out0_2` of the input blocks; the invariant is the
    core's scoped buffers outside the windows and its random-number state, both untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1.lean ====
/- Region 1 of @main, at a parameter `V` — the TensorCore's buffer contents when the region is entered —: each window's
   block at a grid point, what the body leaves in the output window's staging buffer as a function of the input
   blocks (the product of the row block (rounded to bf16) with the weights (rounded to bf16), accumulated in f32 from zero), the body's triple on whole staging
   memrefs, the pipeline's proof data at `V`, and the body obligation at every point. Everything is stated at an
   arbitrary float instance `F`. -/
import proofs.«109125_j11793980195110_1_alg».proof.Proof.Gen.Kernel.Launch
import proofs.«109125_j11793980195110_1_alg».proof.Proof.Gen.Kernel.Skeleton
import proofs.«109125_j11793980195110_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle whose long axis has 10000 coordinates recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the part of its array, as the region finds it (`V`), that the window's index
    map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row block of the left operand): its current staging buffer holds its block at every point, whether the
    pipeline fetched it there or not — unfetched, the block index has not moved since the point before, so the buffer
    still holds the same block. For any proof data whose array is `V`'s (`hA`) and whose body leaves the block in
    place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole weight matrix): its current staging buffer holds its block at every point, whether the
    pipeline fetched it there or not — unfetched, the block index has not moved since the point before, so the buffer
    still holds the same block. For any proof data whose array is `V`'s (`hA`) and whose body leaves the block in
    place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S10000x64 := Rect.unit (s := S10000x64) ![0, 0] S10000x64.size inb_S10000x64_S10000x64_0_0
abbrev r1_1 : Rect S64x32 := Rect.unit (s := S64x32) ![0, 0] S64x32.size inb_S64x32_S64x32_0_0
abbrev r1_2 : Rect S10000x32 := Rect.unit (s := S10000x32) ![0, 0] S10000x32.size inb_S10000x32_S10000x32_0_0

/-! ## What the body leaves in the output window's buffer -/

/-- Window 2's staging buffer after the body, from the input blocks: its one store, over the whole buffer, of
    the product of the row block (rounded to bf16) with the weights (rounded to bf16), accumulated in f32 from zero. -/
def out1_2 (x0 : Vec F S10000x64 .f32) (x1 : Vec F S64x32 .f32) : Vec F S10000x32 .f32 :=
  View.canon [⟨r1_2, k1_pay1 (View.ld x0 r1_0) (View.ld x1 r1_1)⟩]

/-- The one store's rectangle is the whole buffer, so it covers it. -/
theorem cover1_2 (p0 : Vec F S10000x32 .f32) (y : S10000x32.Idx) :
    ∃ pc ∈ ([⟨r1_2, p0⟩] : List (View.Piece (Elt F) S10000x32 .f32)), y ∈ pc.1.set :=
  View.cover_of_tiled [⟨r1_2, p0⟩] S10000x32.size (by rfl) y

/-! ## The body's triple -/

set_option maxHeartbeats 1000000 in
/-- The body on whole staging memrefs, the inputs' reading `xW` and the output's holding anything (the body loads it
    once before the store and uses nothing of what it read), runs to the continuation with the inputs' as they were
    and the output's reading `out1_2` of the inputs. -/
theorem sound_kernel1 (c : Dev nD) (E : Set ℕ) (i : grid1.Coords) (arg1 : Memref sig .tc .vmem S10000x64 .f32) (harg1 : arg1.IsWhole) (arg2 : Memref sig .tc .vmem S64x32 .f32) (harg2 : arg2.IsWhole) (arg3 : Memref sig .tc .vmem S10000x32 .f32) (harg3 : arg3.IsWhole)
    (x0 : Vec F S10000x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point `t`
    each input's buffer still at its block and the output's at `out1_2` of the input blocks; the invariant is the
    core's scoped buffers outside the windows and its random-number state, both untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2.lean ====
/- Region 2 of @main, at a parameter `V` — the TensorCore's buffer contents when the region is entered —: each window's
   block at a grid point, what the body leaves in the output window's staging buffer as a function of the input
   blocks (the product of the row block (rounded to bf16) with the weights (rounded to bf16), accumulated in f32 from zero), the body's triple on whole staging
   memrefs, the pipeline's proof data at `V`, and the body obligation at every point. Everything is stated at an
   arbitrary float instance `F`. -/
import proofs.«109125_j11793980195110_1_alg».proof.Proof.Gen.Kernel.Launch
import proofs.«109125_j11793980195110_1_alg».proof.Proof.Gen.Kernel.Skeleton
import proofs.«109125_j11793980195110_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle whose long axis has 10000 coordinates recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the part of its array, as the region finds it (`V`), that the window's index
    map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the row block of the left operand): its current staging buffer holds its block at every point, whether the
    pipeline fetched it there or not — unfetched, the block index has not moved since the point before, so the buffer
    still holds the same block. For any proof data whose array is `V`'s (`hA`) and whose body leaves the block in
    place (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole weight matrix): its current staging buffer holds its block at every point, whether the
    pipeline fetched it there or not — unfetched, the block index has not moved since the point before, so the buffer
    still holds the same block. For any proof data whose array is `V`'s (`hA`) and whose body leaves the block in
    place (`hafter`). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole -/

abbrev r2_0 : Rect S10000x32 := Rect.unit (s := S10000x32) ![0, 0] S10000x32.size inb_S10000x32_S10000x32_0_0
abbrev r2_1 : Rect S32x16 := Rect.unit (s := S32x16) ![0, 0] S32x16.size inb_S32x16_S32x16_0_0
abbrev r2_2 : Rect S10000x16 := Rect.unit (s := S10000x16) ![0, 0] S10000x16.size inb_S10000x16_S10000x16_0_0

/-! ## What the body leaves in the output window's buffer -/

/-- Window 2's staging buffer after the body, from the input blocks: its one store, over the whole buffer, of
    the product of the row block (rounded to bf16) with the weights (rounded to bf16), accumulated in f32 from zero. -/
def out2_2 (x0 : Vec F S10000x32 .f32) (x1 : Vec F S32x16 .f32) : Vec F S10000x16 .f32 :=
  View.canon [⟨r2_2, k2_pay1 (View.ld x0 r2_0) (View.ld x1 r2_1)⟩]

/-- The one store's rectangle is the whole buffer, so it covers it. -/
theorem cover2_2 (p0 : Vec F S10000x16 .f32) (y : S10000x16.Idx) :
    ∃ pc ∈ ([⟨r2_2, p0⟩] : List (View.Piece (Elt F) S10000x16 .f32)), y ∈ pc.1.set :=
  View.cover_of_tiled [⟨r2_2, p0⟩] S10000x16.size (by rfl) y

/-! ## The body's triple -/

set_option maxHeartbeats 1000000 in
/-- The body on whole staging memrefs, the inputs' reading `xW` and the output's holding anything (the body loads it
    once before the store and uses nothing of what it read), runs to the continuation with the inputs' as they were
    and the output's reading `out2_2` of the inputs. -/
theorem sound_kernel2 (c : Dev nD) (E : Set ℕ) (i : grid2.Coords) (arg1 : Memref sig .tc .vmem S10000x32 .f32) (harg1 : arg1.IsWhole) (arg2 : Memref sig .tc .vmem S32x16 .f32) (harg2 : arg2.IsWhole) (arg3 : Memref sig .tc .vmem S10000x16 .f32) (harg3 : arg3.IsWhole)
    (x0 : Vec F S10000x32 .f32) (x1 : Vec F S32x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point `t`
    each input's buffer still at its block and the output's at `out2_2` of the input blocks; the invariant is the
    core's scoped buffers outside the windows and its random-number state, both untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Reg3.lean ====
/- Region 3 of @main, at a parameter `V` — the TensorCore's buffer contents when the region is entered —: each window's
   block at a grid point, what the body leaves in the output window's staging buffer as a function of the input
   blocks (the product of the row block (rounded to bf16) with the weights (rounded to bf16), accumulated in f32 from zero, plus the
    bias row repeated down the rows, clamped below at zero), the body's triple on whole staging
   memrefs, the pipeline's proof data at `V`, and the body obligation at every point. Everything is stated at an
   arbitrary float instance `F`. -/
import proofs.«109125_j11793980195110_1_alg».proof.Proof.Gen.Kernel.Launch
import proofs.«109125_j11793980195110_1_alg».proof.Proof.Gen.Kernel.Skeleton
import proofs.«109125_j11793980195110_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle whose long axis has 10000 coordinates recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the part of its array, as the region finds it (`V`), that the window's index
    map selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block of the left operand): its current staging buffer holds its block at every point, whether the
    pipeline fetched it there or not — unfetched, the block index has not moved since the point before, so the buffer
    still holds the same block. For any proof data whose array is `V`'s (`hA`) and whose body leaves the block in
    place (`hafter`). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the whole weight matrix): its current staging buffer holds its block at every point, whether the
    pipeline fetched it there or not — unfetched, the block index has not moved since the point before, so the buffer
    still holds the same block. For any proof data whose array is `V`'s (`hA`) and whose body leaves the block in
    place (`hafter`). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the bias row): its current staging buffer holds its block at every point, whether the
    pipeline fetched it there or not — unfetched, the block index has not moved since the point before, so the buffer
    still holds the same block. For any proof data whose array is `V`'s (`hA`) and whose body leaves the block in
    place (`hafter`). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each staging buffer whole -/

abbrev r3_0 : Rect S10000x112 := Rect.unit (s := S10000x112) ![0, 0] S10000x112.size inb_S10000x112_S10000x112_0_0
abbrev r3_1 : Rect S112x16 := Rect.unit (s := S112x16) ![0, 0] S112x16.size inb_S112x16_S112x16_0_0
abbrev r3_2 : Rect S1x16 := Rect.unit (s := S1x16) ![0, 0] S1x16.size inb_S1x16_S1x16_0_0
abbrev r3_3 : Rect S10000x16 := Rect.unit (s := S10000x16) ![0, 0] S10000x16.size inb_S10000x16_S10000x16_0_0

/-! ## What the body leaves in the output window's buffer -/

/-- Window 3's staging buffer after the body, from the input blocks: its one store, over the whole buffer, of
    the product of the row block (rounded to bf16) with the weights (rounded to bf16), accumulated in f32 from zero, plus the
    bias row repeated down the rows, clamped below at zero. -/
def out3_3 (x0 : Vec F S10000x112 .f32) (x1 : Vec F S112x16 .f32) (x2 : Vec F S1x16 .f32) : Vec F S10000x16 .f32 :=
  View.canon [⟨r3_3, k3_pay1 (View.ld x0 r3_0) (View.ld x1 r3_1) (View.ld x2 r3_2)⟩]

/-- The one store's rectangle is the whole buffer, so it covers it. -/
theorem cover3_3 (p0 : Vec F S10000x16 .f32) (y : S10000x16.Idx) :
    ∃ pc ∈ ([⟨r3_3, p0⟩] : List (View.Piece (Elt F) S10000x16 .f32)), y ∈ pc.1.set :=
  View.cover_of_tiled [⟨r3_3, p0⟩] S10000x16.size (by rfl) y

/-! ## The body's triple -/

set_option maxHeartbeats 1000000 in
/-- The body on whole staging memrefs, the inputs' reading `xW` and the output's holding anything (the body loads it
    once before the store and uses nothing of what it read), runs to the continuation with the inputs' as they were
    and the output's reading `out3_3` of the inputs. -/
theorem sound_kernel3 (c : Dev nD) (E : Set ℕ) (i : grid3.Coords) (arg1 : Memref sig .tc .vmem S10000x112 .f32) (harg1 : arg1.IsWhole) (arg2 : Memref sig .tc .vmem S112x16 .f32) (harg2 : arg2.IsWhole) (arg3 : Memref sig .tc .vmem S1x16 .f32) (harg3 : arg3.IsWhole) (arg4 : Memref sig .tc .vmem S10000x16 .f32) (harg4 : arg4.IsWhole)
    (x0 : Vec F S10000x112 .f32) (x1 : Vec F S112x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point `t`
    each input's buffer still at its block and the output's at `out3_3` of the input blocks; the invariant is the
    core's scoped buffers outside the windows and its random-number state, both untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.Run.lean ====
/-
  The run of the whole program: fourteen steps — host operations, then a kernel region, four times over — each taking
  the core's unscoped buffers from one known valuation to the next.  W0 is the launch memory; a stretch of host
  operations takes W to the operations' fold over W; a region takes W to W with its output array replaced by what its
  ten write-backs leave (its input arrays are read, not written).  Every weakly fair execution terminates with every
  unscoped buffer at W14; the argument arrays are never written on the way, so they end as launched.
-/
import proofs.«109125_j11793980195110_1_alg».proof.Proof.K.Reg0
import proofs.«109125_j11793980195110_1_alg».proof.Proof.K.Reg1
import proofs.«109125_j11793980195110_1_alg».proof.Proof.K.Reg2
import proofs.«109125_j11793980195110_1_alg».proof.Proof.K.Reg3
import proofs.«109125_j11793980195110_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core c's buffers at launch. -/
abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
/-- Region 0 is entered here. -/
abbrev W3 : Dev nD → Valuation τ sig (Elt F) := fun c => StableHlo.after hostOps0_2 (W2 m c)
abbrev Vr3 : (c : Dev nD) → (b : Ref sig .tc) → Buf (Elt F) ((c : Thread nD τ).loc b) := fun c b => W3 m c b
/-- After region 0: its arrays at what the pipeline leaves (an input as entered, the output's write-backs folded in),
    every other buffer as entered. -/
def W4 (c : Dev nD) : Valuation τ sig (Elt F) :=
  Pipeline.withArrays spec0 c (W3 m c) fun w => (dat0 (Vr3 m) c).arrAt w cfg0.N
theorem W4_arr (c : Dev nD) (w : Fin cfg0.W) :
    W4 m c (Proc.devRef .tc (Pipeline.arrRef spec0 w)) = (dat0 (Vr3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same at the core's own references. -/
abbrev Vr4 : (c : Dev nD) → (b : Ref sig .tc) → Buf (Elt F) ((c : Thread nD τ).loc b) := fun c b => W4 m c b
theorem hF0 (c : Dev nD) (w : Fin cfg0.W) : (dat0 (Vr3 m) c).arrAt w cfg0.N = Vr4 m c (Pipeline.arrRef spec0 w) :=
  (W4_arr m c w).symm
theorem hrest0 (c : Dev nD) : ∀ b, b ∉ Finset.univ.image (Pipeline.arrRef spec0) → Vr4 m c b = Vr3 m c b :=
  fun b hb => W4_of_ne m c b fun w e => hb (Finset.mem_image.mpr ⟨w, Finset.mem_univ _, e⟩)

abbrev W5 : Dev nD → Valuation τ sig (Elt F) := fun c => StableHlo.after hostOps1 (W4 m c)
/-- Region 1 is entered here. -/
abbrev W6 : Dev nD → Valuation τ sig (Elt F) := fun c => StableHlo.after hostOps1_1 (W5 m c)
abbrev Vr6 : (c : Dev nD) → (b : Ref sig .tc) → Buf (Elt F) ((c : Thread nD τ).loc b) := fun c b => W6 m c b
/-- After region 1: its arrays at what the pipeline leaves (an input as entered, the output's write-backs folded in),
    every other buffer as entered. -/
def W7 (c : Dev nD) : Valuation τ sig (Elt F) :=
  Pipeline.withArrays spec1 c (W6 m c) fun w => (dat1 (Vr6 m) c).arrAt w cfg1.N
theorem W7_arr (c : Dev nD) (w : Fin cfg1.W) :
    W7 m c (Proc.devRef .tc (Pipeline.arrRef spec1 w)) = (dat1 (Vr6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- The same at the core's own references. -/
abbrev Vr7 : (c : Dev nD) → (b : Ref sig .tc) → Buf (Elt F) ((c : Thread nD τ).loc b) := fun c b => W7 m c b
theorem hF1 (c : Dev nD) (w : Fin cfg1.W) : (dat1 (Vr6 m) c).arrAt w cfg1.N = Vr7 m c (Pipeline.arrRef spec1 w) :=
  (W7_arr m c w).symm
theorem hrest1 (c : Dev nD) : ∀ b, b ∉ Finset.univ.image (Pipeline.arrRef spec1) → Vr7 m c b = Vr6 m c b :=
  fun b hb => W7_of_ne m c b fun w e => hb (Finset.mem_image.mpr ⟨w, Finset.mem_univ _, e⟩)

abbrev W8 : Dev nD → Valuation τ sig (Elt F) := fun c => StableHlo.after hostOps2 (W7 m c)
/-- Region 2 is entered here. -/
abbrev W9 : Dev nD → Valuation τ sig (Elt F) := fun c => StableHlo.after hostOps2_1 (W8 m c)
abbrev Vr9 : (c : Dev nD) → (b : Ref sig .tc) → Buf (Elt F) ((c : Thread nD τ).loc b) := fun c b => W9 m c b
/-- After region 2: its arrays at what the pipeline leaves (an input as entered, the output's write-backs folded in),
    every other buffer as entered. -/
def W10 (c : Dev nD) : Valuation τ sig (Elt F) :=
  Pipeline.withArrays spec2 c (W9 m c) fun w => (dat2 (Vr9 m) c).arrAt w cfg2.N
theorem W10_arr (c : Dev nD) (w : Fin cfg2.W) :
    W10 m c (Proc.devRef .tc (Pipeline.arrRef spec2 w)) = (dat2 (Vr9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
/-- The same at the core's own references. -/
abbrev Vr10 : (c : Dev nD) → (b : Ref sig .tc) → Buf (Elt F) ((c : Thread nD τ).loc b) := fun c b => W10 m c b
theorem hF2 (c : Dev nD) (w : Fin cfg2.W) : (dat2 (Vr9 m) c).arrAt w cfg2.N = Vr10 m c (Pipeline.arrRef spec2 w) :=
  (W10_arr m c w).symm
theorem hrest2 (c : Dev nD) : ∀ b, b ∉ Finset.univ.image (Pipeline.arrRef spec2) → Vr10 m c b = Vr9 m c b :=
  fun b hb => W10_of_ne m c b fun w e => hb (Finset.mem_image.mpr ⟨w, Finset.mem_univ _, e⟩)

abbrev W11 : Dev nD → Valuation τ sig (Elt F) := fun c => StableHlo.after hostOps3 (W10 m c)
abbrev W12 : Dev nD → Valuation τ sig (Elt F) := fun c => StableHlo.after hostOps3_1 (W11 m c)
/-- Region 3 is entered here. -/
abbrev W13 : Dev nD → Valuation τ sig (Elt F) := fun c => StableHlo.after hostOps3_2 (W12 m c)
abbrev Vr13 : (c : Dev nD) → (b : Ref sig .tc) → Buf (Elt F) ((c : Thread nD τ).loc b) := fun c b => W13 m c b
/-- After region 3: its arrays at what the pipeline leaves (an input as entered, the output's write-backs folded in),
    every other buffer as entered. -/
def W14 (c : Dev nD) : Valuation τ sig (Elt F) :=
  Pipeline.withArrays spec3 c (W13 m c) fun w => (dat3 (Vr13 m) c).arrAt w cfg3.N
theorem W14_arr (c : Dev nD) (w : Fin cfg3.W) :
    W14 m c (Proc.devRef .tc (Pipeline.arrRef spec3 w)) = (dat3 (Vr13 m) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m c (Proc.devRef .tc b) = W13 m c (Proc.devRef .tc b) := by
  unfold W14; exact Pipeline.withArrays_of_ne spec3 c _ _ b hb
/-- The same at the core's own references. -/
abbrev Vr14 : (c : Dev nD) → (b : Ref sig .tc) → Buf (Elt F) ((c : Thread nD τ).loc b) := fun c b => W14 m c b
theorem hF3 (c : Dev nD) (w : Fin cfg3.W) : (dat3 (Vr13 m) c).arrAt w cfg3.N = Vr14 m c (Pipeline.arrRef spec3 w) :=
  (W14_arr m c w).symm
theorem hrest3 (c : Dev nD) : ∀ b, b ∉ Finset.univ.image (Pipeline.arrRef spec3) → Vr14 m c b = Vr13 m c b :=
  fun b hb => W14_of_ne m c b fun w e => hb (Finset.mem_image.mpr ⟨w, Finset.mem_univ _, e⟩)

/-! ## The proof data family and the thread state -/

/-- No pipeline has a prefetched table. -/
abbrev adm : (p : Fin 4) → (pcfgs (F := F) p).Adm := fun p => (cfgs p).toPCfg_adm
/-- Every pipeline's proof data, each at the contents its region is entered with. -/
def pdats : (p : Fin 4) → (c : Dev nD) → Dat τ (Elt F) Unit ℕ (UR sig nD τ) ℕ (Pipeline.pin (pcfgs (F := F)) adm p) c
  | ⟨0, _⟩ => fun c => dat0 (Vr3 m) c
  | ⟨1, _⟩ => fun c => dat1 (Vr6 m) c
  | ⟨2, _⟩ => fun c => dat2 (Vr9 m) c
  | ⟨3, _⟩ => fun c => dat3 (Vr13 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every step: the core's generator register at some state, and the core
    owing nothing. -/
abbrev R (c : Dev nD) : sProp 𝕄 := iprop((∃ r, prngReg c r) ∗ ∃ W, owes (c : Thread nD τ) (0 : CellTallies nD τ sig Unit) W)
/-- A stretch of host operations as a step from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at W14, the generator register at some state. -/
abbrev Tₙ (c : Dev nD) : sProp 𝕄 := iprop(StableHlo.held (c : Thread nD τ) (Pipeline.ucRefs τ sig) (W14 m c) ∗ ∃ r, prngReg c r)

/-! ## The regions as steps -/

set_option backward.isDefEq.respectTransparency.types false in
/-- Region 0 over the thread state: entered with every unscoped buffer at `W3`, left with them at `W4`.  Its
    windows' arrays are taken out of the unscoped buffers at entry and put back, at what the write-backs leave, at
    exit; the generator register passes through the invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (Vr3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr3 m c) (Vr4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W6`, left with them at `W7`.  Its
    windows' arrays are taken out of the unscoped buffers at entry and put back, at what the write-backs leave, at
    exit; the generator register passes through the invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (Vr6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr6 m c) (Vr7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W9`, left with them at `W10`.  Its
    windows' arrays are taken out of the unscoped buffers at entry and put back, at what the write-backs leave, at
    exit; the generator register passes through the invariant; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (Vr9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr9 m c) (Vr10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W13`, left with them at `W14`.  Its
    windows' arrays are taken out of the unscoped buffers at entry and put back, at what the write-backs leave, at
    exit; the generator register passes through the invariant; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vr13 m) c).loose
  hwaits := Pipeline.hwaits_of_owed_zero _ _ _ _ L lv 3 fun _ _ => rfl
  pre c := iprop(StableHlo.held (c : Thread nD τ) (Pipeline.ucRefs τ sig) (W13 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (Vr13 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vr13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vr13 m c) (Vr14 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its steps, and the run -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .region (reg1 m),
    .host (hseg hostOps2 hostOps2_sub hostOps2_fresh (W7 m)),
    .host (hseg hostOps2_1 hostOps2_1_sub hostOps2_1_fresh (W8 m)),
    .region (reg2 m),
    .host (hseg hostOps3 hostOps3_sub hostOps3_fresh (W10 m)),
    .host (hseg hostOps3_1 hostOps3_1_sub hostOps3_1_fresh (W11 m)),
    .host (hseg hostOps3_2 hostOps3_2_sub hostOps3_2_fresh (W12 m)),
    .region (reg3 m) ]

set_option backward.isDefEq.respectTransparency.types false in
/-- THE RUN.  From any memory with zero counters every weakly fair execution of the program terminates, nothing
    faulting, and every unscoped buffer of every core ends at W14. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          StableHlo.seq hostOps3_1,
          StableHlo.seq hostOps3_2,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h => h)

section Keep

variable (c : Dev nD)

/-! ## A region writes its output array only -/

/-- Region 0 changes main_v30 only. -/
theorem keep_r0 (r : Ref sig .tc) (h : r ≠ main_v30) : W4 m c r = W3 m c r := by
  by_cases hr : ∃ w, Pipeline.arrRef spec0 w = r
  · obtain ⟨w, rfl⟩ := hr
    match w with
    | ⟨0, _⟩ => exact (W4_arr m c 0).trans (((dat0 (Vr3 m) c).arrAt_in 0 rfl _).trans (A_eq0 (Vr3 m) c 0))
    | ⟨1, _⟩ => exact (W4_arr m c 1).trans (((dat0 (Vr3 m) c).arrAt_in 1 rfl _).trans (A_eq0 (Vr3 m) c 1))
    | ⟨2, _⟩ => exact absurd rfl h
  · exact W4_of_ne m c r fun w e => hr ⟨w, e⟩

/-- Region 1 changes main_v48 only. -/
theorem keep_r1 (r : Ref sig .tc) (h : r ≠ main_v48) : W7 m c r = W6 m c r := by
  by_cases hr : ∃ w, Pipeline.arrRef spec1 w = r
  · obtain ⟨w, rfl⟩ := hr
    match w with
    | ⟨0, _⟩ => exact (W7_arr m c 0).trans (((dat1 (Vr6 m) c).arrAt_in 0 rfl _).trans (A_eq1 (Vr6 m) c 0))
    | ⟨1, _⟩ => exact (W7_arr m c 1).trans (((dat1 (Vr6 m) c).arrAt_in 1 rfl _).trans (A_eq1 (Vr6 m) c 1))
    | ⟨2, _⟩ => exact absurd rfl h
  · exact W7_of_ne m c r fun w e => hr ⟨w, e⟩

/-- Region 2 changes main_v66 only. -/
theorem keep_r2 (r : Ref sig .tc) (h : r ≠ main_v66) : W10 m c r = W9 m c r := by
  by_cases hr : ∃ w, Pipeline.arrRef spec2 w = r
  · obtain ⟨w, rfl⟩ := hr
    match w with
    | ⟨0, _⟩ => exact (W10_arr m c 0).trans (((dat2 (Vr9 m) c).arrAt_in 0 rfl _).trans (A_eq2 (Vr9 m) c 0))
    | ⟨1, _⟩ => exact (W10_arr m c 1).trans (((dat2 (Vr9 m) c).arrAt_in 1 rfl _).trans (A_eq2 (Vr9 m) c 1))
    | ⟨2, _⟩ => exact absurd rfl h
  · exact W10_of_ne m c r fun w e => hr ⟨w, e⟩

/-- Region 3 changes main_v86 only. -/
theorem keep_r3 (r : Ref sig .tc) (h : r ≠ main_v86) : W14 m c r = W13 m c r := by
  by_cases hr : ∃ w, Pipeline.arrRef spec3 w = r
  · obtain ⟨w, rfl⟩ := hr
    match w with
    | ⟨0, _⟩ => exact (W14_arr m c 0).trans (((dat3 (Vr13 m) c).arrAt_in 0 rfl _).trans (A_eq3 (Vr13 m) c 0))
    | ⟨1, _⟩ => exact (W14_arr m c 1).trans (((dat3 (Vr13 m) c).arrAt_in 1 rfl _).trans (A_eq3 (Vr13 m) c 1))
    | ⟨2, _⟩ => exact (W14_arr m c 2).trans (((dat3 (Vr13 m) c).arrAt_in 2 rfl _).trans (A_eq3 (Vr13 m) c 2))
    | ⟨3, _⟩ => exact absurd rfl h
  · exact W14_of_ne m c r fun w e => hr ⟨w, e⟩

/-! ## A stretch of host operations writes its own results only -/

variable (X : Valuation τ sig (Elt F))

theorem keep_h0 (r : Ref sig .tc) (h : r ∉ hostOps0_W) : StableHlo.after hostOps0 X r = X r := StableHlo.after_of_writes_sub hostOps0 X hostOps0_writes h
theorem keep_h0_1 (r : Ref sig .tc) (h : r ∉ hostOps0_1_W) : StableHlo.after hostOps0_1 X r = X r := StableHlo.after_of_writes_sub hostOps0_1 X hostOps0_1_writes h
theorem keep_h0_2 (r : Ref sig .tc) (h : r ∉ hostOps0_2_W) : StableHlo.after hostOps0_2 X r = X r := StableHlo.after_of_writes_sub hostOps0_2 X hostOps0_2_writes h
theorem keep_h1 (r : Ref sig .tc) (h : r ∉ hostOps1_W) : StableHlo.after hostOps1 X r = X r := StableHlo.after_of_writes_sub hostOps1 X hostOps1_writes h
theorem keep_h1_1 (r : Ref sig .tc) (h : r ∉ hostOps1_1_W) : StableHlo.after hostOps1_1 X r = X r := StableHlo.after_of_writes_sub hostOps1_1 X hostOps1_1_writes h
theorem keep_h2 (r : Ref sig .tc) (h : r ∉ hostOps2_W) : StableHlo.after hostOps2 X r = X r := StableHlo.after_of_writes_sub hostOps2 X hostOps2_writes h
theorem keep_h2_1 (r : Ref sig .tc) (h : r ∉ hostOps2_1_W) : StableHlo.after hostOps2_1 X r = X r := StableHlo.after_of_writes_sub hostOps2_1 X hostOps2_1_writes h
theorem keep_h3 (r : Ref sig .tc) (h : r ∉ hostOps3_W) : StableHlo.after hostOps3 X r = X r := StableHlo.after_of_writes_sub hostOps3 X hostOps3_writes h
theorem keep_h3_1 (r : Ref sig .tc) (h : r ∉ hostOps3_1_W) : StableHlo.after hostOps3_1 X r = X r := StableHlo.after_of_writes_sub hostOps3_1 X hostOps3_1_writes h
theorem keep_h3_2 (r : Ref sig .tc) (h : r ∉ hostOps3_2_W) : StableHlo.after hostOps3_2 X r = X r := StableHlo.after_of_writes_sub hostOps3_2 X hostOps3_2_writes h

/-! ## From one region's entry to the next -/

/-- From the launch to region 0's entry: nothing written but the host operations' own results. -/
theorem keep_0_3 (r : Ref sig .tc) (h0 : r ∉ hostOps0_W) (h1 : r ∉ hostOps0_1_W) (h2 : r ∉ hostOps0_2_W) : W3 m c r = W0 m c r :=
  (keep_h0_2 _ r h2).trans ((keep_h0_1 _ r h1).trans (keep_h0 _ r h0))
/-- From region 0's exit to region 1's entry. -/
theorem keep_4_6 (r : Ref sig .tc) (h1 : r ∉ hostOps1_W) (h2 : r ∉ hostOps1_1_W) : W6 m c r = W4 m c r :=
  (keep_h1_1 _ r h2).trans (keep_h1 _ r h1)
/-- From region 1's exit to region 2's entry. -/
theorem keep_7_9 (r : Ref sig .tc) (h1 : r ∉ hostOps2_W) (h2 : r ∉ hostOps2_1_W) : W9 m c r = W7 m c r :=
  (keep_h2_1 _ r h2).trans (keep_h2 _ r h1)
/-- From region 2's exit to the last host operations. -/
theorem keep_10_12 (r : Ref sig .tc) (h1 : r ∉ hostOps3_W) (h2 : r ∉ hostOps3_1_W) : W12 m c r = W10 m c r :=
  (keep_h3_1 _ r h2).trans (keep_h3 _ r h1)
/-- From region 0's entry to region 1's entry, for a buffer none of that writes. -/
theorem keep_3_6 (r : Ref sig .tc) (h : r ≠ main_v30) (h1 : r ∉ hostOps1_W) (h2 : r ∉ hostOps1_1_W) : W6 m c r = W3 m c r :=
  (keep_4_6 m c r h1 h2).trans (keep_r0 m c r h)
theorem keep_6_9 (r : Ref sig .tc) (h : r ≠ main_v48) (h1 : r ∉ hostOps2_W) (h2 : r ∉ hostOps2_1_W) : W9 m c r = W6 m c r :=
  (keep_7_9 m c r h1 h2).trans (keep_r1 m c r h)
theorem keep_9_12 (r : Ref sig .tc) (h : r ≠ main_v66) (h1 : r ∉ hostOps3_W) (h2 : r ∉ hostOps3_1_W) : W12 m c r = W9 m c r :=
  (keep_10_12 m c r h1 h2).trans (keep_r2 m c r h)

/-- A buffer that no step up to region 3's entry writes holds there what was launched. -/
theorem w13_const (r : Ref sig .tc) (h0 : r ∉ hostOps0_W := by decide) (h1 : r ∉ hostOps0_1_W := by decide) (h2 : r ∉ hostOps0_2_W := by decide)
    (g0 : r ≠ main_v30 := by decide) (h3 : r ∉ hostOps1_W := by decide) (h4 : r ∉ hostOps1_1_W := by decide)
    (g1 : r ≠ main_v48 := by decide) (h5 : r ∉ hostOps2_W := by decide) (h6 : r ∉ hostOps2_1_W := by decide)
    (g2 : r ≠ main_v66 := by decide) (h7 : r ∉ hostOps3_W := by decide) (h8 : r ∉ hostOps3_1_W := by decide)
    (h9 : r ∉ hostOps3_2_W := by decide) : W13 m c r = W0 m c r :=
  (keep_h3_2 _ r h9).trans ((keep_9_12 m c r g2 h7 h8).trans ((keep_6_9 m c r g1 h5 h6).trans
    ((keep_3_6 m c r g0 h3 h4).trans (keep_0_3 m c r h0 h1 h2))))

/-- A buffer that no step writes ends as launched. -/
theorem w14_const (r : Ref sig .tc) (h0 : r ∉ hostOps0_W := by decide) (h1 : r ∉ hostOps0_1_W := by decide) (h2 : r ∉ hostOps0_2_W := by decide)
    (g0 : r ≠ main_v30 := by decide) (h3 : r ∉ hostOps1_W := by decide) (h4 : r ∉ hostOps1_1_W := by decide)
    (g1 : r ≠ main_v48 := by decide) (h5 : r ∉ hostOps2_W := by decide) (h6 : r ∉ hostOps2_1_W := by decide)
    (g2 : r ≠ main_v66 := by decide) (h7 : r ∉ hostOps3_W := by decide) (h8 : r ∉ hostOps3_1_W := by decide)
    (h9 : r ∉ hostOps3_2_W := by decide) (g3 : r ≠ main_v86 := by decide) : W14 m c r = m ((c : Thread nD τ).loc r) :=
  (keep_r3 m c r g3).trans (w13_const m c r h0 h1 h2 g0 h3 h4 g1 h5 h6 g2 h7 h8 h9)

end Keep

/-! ## The frame, and the run with the result's value -/

/-- Every weakly fair execution terminates, nothing faulting, with the result array at W14's and the ten argument
    arrays as launched. -/
theorem run_val (ρ : Dev nD → PrngReg) : θ_run defs (onTc (τ := τ) (main (F := F))) ⟨m, fun _ => 0, ρ⟩ (fun r => ∀ c : Dev nD,
      r.2.mem ((c.tc : Thread nD τ).loc main_v86) = W14 m c main_v86
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v86 (by decide)),
      (h c _ (mem_uc main_arg0 (by decide))).trans (w14_const m c main_arg0),
      (h c _ (mem_uc main_arg1 (by decide))).trans (w14_const m c main_arg1),
      (h c _ (mem_uc main_arg2 (by decide))).trans (w14_const m c main_arg2),
      (h c _ (mem_uc main_arg3 (by decide))).trans (w14_const m c main_arg3),
      (h c _ (mem_uc main_arg4 (by decide))).trans (w14_const m c main_arg4),
      (h c _ (mem_uc main_arg5 (by decide))).trans (w14_const m c main_arg5),
      (h c _ (mem_uc main_arg6 (by decide))).trans (w14_const m c main_arg6),
      (h c _ (mem_uc main_arg7 (by decide))).trans (w14_const m c main_arg7),
      (h c _ (mem_uc main_arg8 (by decide))).trans (w14_const m c main_arg8),
      (h c _ (mem_uc main_arg9 (by decide))).trans (w14_const m c main_arg9)⟩) (run_all m ρ)

/-- THE FRAME: the program runs to the end, faults nowhere, and leaves its ten argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run_val m ρ)

end Cert.Kernel.Fr

end
-- ==== Proof.KI.Reg0.lean ====
/- Region 0 of @main, at a parameter `V` — the TensorCore's buffer contents when the region is entered —: each window's
   block at a grid point, what the body leaves in the output window's staging buffer as a function of the input
   blocks (the product of the row block (rounded to bf16) with the weights (rounded to bf16), accumulated in f32 from zero), the body's triple on whole staging
   memrefs, the pipeline's proof data at `V`, and the body obligation at every point. Everything is stated at an
   arbitrary float instance `F`. -/
import proofs.«109125_j11793980195110_1_alg».proof.Proof.Gen.KernelIdeal.Launch
import proofs.«109125_j11793980195110_1_alg».proof.Proof.Gen.KernelIdeal.Skeleton
import proofs.«109125_j11793980195110_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle whose long axis has 10000 coordinates recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the part of its array, as the region finds it (`V`), that the window's index
    map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block of the left operand): its current staging buffer holds its block at every point, whether the
    pipeline fetched it there or not — unfetched, the block index has not moved since the point before, so the buffer
    still holds the same block. For any proof data whose array is `V`'s (`hA`) and whose body leaves the block in
    place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight matrix): its current staging buffer holds its block at every point, whether the
    pipeline fetched it there or not — unfetched, the block index has not moved since the point before, so the buffer
    still holds the same block. For any proof data whose array is `V`'s (`hA`) and whose body leaves the block in
    place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S10000x64 := Rect.unit (s := S10000x64) ![0, 0] S10000x64.size inb_S10000x64_S10000x64_0_0

/-! ## What the body leaves in the output window's buffer -/

/-- Window 2's staging buffer after the body, from the input blocks: its one store, over the whole buffer, of
    the product of the row block (rounded to bf16) with the weights (rounded to bf16), accumulated in f32 from zero. -/
def out0_2 (x0 : Vec F S10000x128 .f32) (x1 : Vec F S128x64 .f32) : Vec F S10000x64 .f32 :=
  View.canon [⟨r0_2, k0_pay1 (View.ld x0 r0_0) (View.ld x1 r0_1)⟩]

/-- The one store's rectangle is the whole buffer, so it covers it. -/
theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

/-! ## The body's triple -/

set_option maxHeartbeats 1000000 in
/-- The body on whole staging memrefs, the inputs' reading `xW` and the output's holding anything (the body loads it
    once before the store and uses nothing of what it read), runs to the continuation with the inputs' as they were
    and the output's reading `out0_2` of the inputs. -/
theorem sound_kernel0 (c : Dev nD) (E : Set ℕ) (i : grid0.Coords) (arg1 : Memref sig .tc .vmem S10000x128 .f32) (harg1 : arg1.IsWhole) (arg2 : Memref sig .tc .vmem S128x64 .f32) (harg2 : arg2.IsWhole) (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer still at its block and the output's at `out0_2` of the input blocks; the invariant is the
    core's scoped buffers outside the windows and its random-number state, both untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
/- Region 1 of @main, at a parameter `V` — the TensorCore's buffer contents when the region is entered —: each window's
   block at a grid point, what the body leaves in the output window's staging buffer as a function of the input
   blocks (the product of the row block (rounded to bf16) with the weights (rounded to bf16), accumulated in f32 from zero), the body's triple on whole staging
   memrefs, the pipeline's proof data at `V`, and the body obligation at every point. Everything is stated at an
   arbitrary float instance `F`. -/
import proofs.«109125_j11793980195110_1_alg».proof.Proof.Gen.KernelIdeal.Launch
import proofs.«109125_j11793980195110_1_alg».proof.Proof.Gen.KernelIdeal.Skeleton
import proofs.«109125_j11793980195110_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle whose long axis has 10000 coordinates recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the part of its array, as the region finds it (`V`), that the window's index
    map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row block of the left operand): its current staging buffer holds its block at every point, whether the
    pipeline fetched it there or not — unfetched, the block index has not moved since the point before, so the buffer
    still holds the same block. For any proof data whose array is `V`'s (`hA`) and whose body leaves the block in
    place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole weight matrix): its current staging buffer holds its block at every point, whether the
    pipeline fetched it there or not — unfetched, the block index has not moved since the point before, so the buffer
    still holds the same block. For any proof data whose array is `V`'s (`hA`) and whose body leaves the block in
    place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S10000x64 := Rect.unit (s := S10000x64) ![0, 0] S10000x64.size inb_S10000x64_S10000x64_0_0
abbrev r1_1 : Rect S64x32 := Rect.unit (s := S64x32) ![0, 0] S64x32.size inb_S64x32_S64x32_0_0
abbrev r1_2 : Rect S10000x32 := Rect.unit (s := S10000x32) ![0, 0] S10000x32.size inb_S10000x32_S10000x32_0_0

/-! ## What the body leaves in the output window's buffer -/

/-- Window 2's staging buffer after the body, from the input blocks: its one store, over the whole buffer, of
    the product of the row block (rounded to bf16) with the weights (rounded to bf16), accumulated in f32 from zero. -/
def out1_2 (x0 : Vec F S10000x64 .f32) (x1 : Vec F S64x32 .f32) : Vec F S10000x32 .f32 :=
  View.canon [⟨r1_2, k1_pay1 (View.ld x0 r1_0) (View.ld x1 r1_1)⟩]

/-- The one store's rectangle is the whole buffer, so it covers it. -/
theorem cover1_2 (p0 : Vec F S10000x32 .f32) (y : S10000x32.Idx) :
    ∃ pc ∈ ([⟨r1_2, p0⟩] : List (View.Piece (Elt F) S10000x32 .f32)), y ∈ pc.1.set :=
  View.cover_of_tiled [⟨r1_2, p0⟩] S10000x32.size (by rfl) y

/-! ## The body's triple -/

set_option maxHeartbeats 1000000 in
/-- The body on whole staging memrefs, the inputs' reading `xW` and the output's holding anything (the body loads it
    once before the store and uses nothing of what it read), runs to the continuation with the inputs' as they were
    and the output's reading `out1_2` of the inputs. -/
theorem sound_kernel1 (c : Dev nD) (E : Set ℕ) (i : grid1.Coords) (arg1 : Memref sig .tc .vmem S10000x64 .f32) (harg1 : arg1.IsWhole) (arg2 : Memref sig .tc .vmem S64x32 .f32) (harg2 : arg2.IsWhole) (arg3 : Memref sig .tc .vmem S10000x32 .f32) (harg3 : arg3.IsWhole)
    (x0 : Vec F S10000x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point `t`
    each input's buffer still at its block and the output's at `out1_2` of the input blocks; the invariant is the
    core's scoped buffers outside the windows and its random-number state, both untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
/- Region 2 of @main, at a parameter `V` — the TensorCore's buffer contents when the region is entered —: each window's
   block at a grid point, what the body leaves in the output window's staging buffer as a function of the input
   blocks (the product of the row block (rounded to bf16) with the weights (rounded to bf16), accumulated in f32 from zero), the body's triple on whole staging
   memrefs, the pipeline's proof data at `V`, and the body obligation at every point. Everything is stated at an
   arbitrary float instance `F`. -/
import proofs.«109125_j11793980195110_1_alg».proof.Proof.Gen.KernelIdeal.Launch
import proofs.«109125_j11793980195110_1_alg».proof.Proof.Gen.KernelIdeal.Skeleton
import proofs.«109125_j11793980195110_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle whose long axis has 10000 coordinates recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the part of its array, as the region finds it (`V`), that the window's index
    map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the row block of the left operand): its current staging buffer holds its block at every point, whether the
    pipeline fetched it there or not — unfetched, the block index has not moved since the point before, so the buffer
    still holds the same block. For any proof data whose array is `V`'s (`hA`) and whose body leaves the block in
    place (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole weight matrix): its current staging buffer holds its block at every point, whether the
    pipeline fetched it there or not — unfetched, the block index has not moved since the point before, so the buffer
    still holds the same block. For any proof data whose array is `V`'s (`hA`) and whose body leaves the block in
    place (`hafter`). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole -/

abbrev r2_0 : Rect S10000x32 := Rect.unit (s := S10000x32) ![0, 0] S10000x32.size inb_S10000x32_S10000x32_0_0
abbrev r2_1 : Rect S32x16 := Rect.unit (s := S32x16) ![0, 0] S32x16.size inb_S32x16_S32x16_0_0
abbrev r2_2 : Rect S10000x16 := Rect.unit (s := S10000x16) ![0, 0] S10000x16.size inb_S10000x16_S10000x16_0_0

/-! ## What the body leaves in the output window's buffer -/

/-- Window 2's staging buffer after the body, from the input blocks: its one store, over the whole buffer, of
    the product of the row block (rounded to bf16) with the weights (rounded to bf16), accumulated in f32 from zero. -/
def out2_2 (x0 : Vec F S10000x32 .f32) (x1 : Vec F S32x16 .f32) : Vec F S10000x16 .f32 :=
  View.canon [⟨r2_2, k2_pay1 (View.ld x0 r2_0) (View.ld x1 r2_1)⟩]

/-- The one store's rectangle is the whole buffer, so it covers it. -/
theorem cover2_2 (p0 : Vec F S10000x16 .f32) (y : S10000x16.Idx) :
    ∃ pc ∈ ([⟨r2_2, p0⟩] : List (View.Piece (Elt F) S10000x16 .f32)), y ∈ pc.1.set :=
  View.cover_of_tiled [⟨r2_2, p0⟩] S10000x16.size (by rfl) y

/-! ## The body's triple -/

set_option maxHeartbeats 1000000 in
/-- The body on whole staging memrefs, the inputs' reading `xW` and the output's holding anything (the body loads it
    once before the store and uses nothing of what it read), runs to the continuation with the inputs' as they were
    and the output's reading `out2_2` of the inputs. -/
theorem sound_kernel2 (c : Dev nD) (E : Set ℕ) (i : grid2.Coords) (arg1 : Memref sig .tc .vmem S10000x32 .f32) (harg1 : arg1.IsWhole) (arg2 : Memref sig .tc .vmem S32x16 .f32) (harg2 : arg2.IsWhole) (arg3 : Memref sig .tc .vmem S10000x16 .f32) (harg3 : arg3.IsWhole)
    (x0 : Vec F S10000x32 .f32) (x1 : Vec F S32x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point `t`
    each input's buffer still at its block and the output's at `out2_2` of the input blocks; the invariant is the
    core's scoped buffers outside the windows and its random-number state, both untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Reg3.lean ====
/- Region 3 of @main, at a parameter `V` — the TensorCore's buffer contents when the region is entered —: each window's
   block at a grid point, what the body leaves in the output window's staging buffer as a function of the input
   blocks (the product of the row block (rounded to bf16) with the weights (rounded to bf16), accumulated in f32 from zero, plus the
    bias row repeated down the rows, clamped below at zero), the body's triple on whole staging
   memrefs, the pipeline's proof data at `V`, and the body obligation at every point. Everything is stated at an
   arbitrary float instance `F`. -/
import proofs.«109125_j11793980195110_1_alg».proof.Proof.Gen.KernelIdeal.Launch
import proofs.«109125_j11793980195110_1_alg».proof.Proof.Gen.KernelIdeal.Skeleton
import proofs.«109125_j11793980195110_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle whose long axis has 10000 coordinates recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the part of its array, as the region finds it (`V`), that the window's index
    map selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block of the left operand): its current staging buffer holds its block at every point, whether the
    pipeline fetched it there or not — unfetched, the block index has not moved since the point before, so the buffer
    still holds the same block. For any proof data whose array is `V`'s (`hA`) and whose body leaves the block in
    place (`hafter`). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the whole weight matrix): its current staging buffer holds its block at every point, whether the
    pipeline fetched it there or not — unfetched, the block index has not moved since the point before, so the buffer
    still holds the same block. For any proof data whose array is `V`'s (`hA`) and whose body leaves the block in
    place (`hafter`). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the bias row): its current staging buffer holds its block at every point, whether the
    pipeline fetched it there or not — unfetched, the block index has not moved since the point before, so the buffer
    still holds the same block. For any proof data whose array is `V`'s (`hA`) and whose body leaves the block in
    place (`hafter`). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each staging buffer whole -/

abbrev r3_0 : Rect S10000x112 := Rect.unit (s := S10000x112) ![0, 0] S10000x112.size inb_S10000x112_S10000x112_0_0
abbrev r3_1 : Rect S112x16 := Rect.unit (s := S112x16) ![0, 0] S112x16.size inb_S112x16_S112x16_0_0
abbrev r3_2 : Rect S1x16 := Rect.unit (s := S1x16) ![0, 0] S1x16.size inb_S1x16_S1x16_0_0
abbrev r3_3 : Rect S10000x16 := Rect.unit (s := S10000x16) ![0, 0] S10000x16.size inb_S10000x16_S10000x16_0_0

/-! ## What the body leaves in the output window's buffer -/

/-- Window 3's staging buffer after the body, from the input blocks: its one store, over the whole buffer, of
    the product of the row block (rounded to bf16) with the weights (rounded to bf16), accumulated in f32 from zero, plus the
    bias row repeated down the rows, clamped below at zero. -/
def out3_3 (x0 : Vec F S10000x112 .f32) (x1 : Vec F S112x16 .f32) (x2 : Vec F S1x16 .f32) : Vec F S10000x16 .f32 :=
  View.canon [⟨r3_3, k3_pay1 (View.ld x0 r3_0) (View.ld x1 r3_1) (View.ld x2 r3_2)⟩]

/-- The one store's rectangle is the whole buffer, so it covers it. -/
theorem cover3_3 (p0 : Vec F S10000x16 .f32) (y : S10000x16.Idx) :
    ∃ pc ∈ ([⟨r3_3, p0⟩] : List (View.Piece (Elt F) S10000x16 .f32)), y ∈ pc.1.set :=
  View.cover_of_tiled [⟨r3_3, p0⟩] S10000x16.size (by rfl) y

/-! ## The body's triple -/

set_option maxHeartbeats 1000000 in
/-- The body on whole staging memrefs, the inputs' reading `xW` and the output's holding anything (the body loads it
    once before the store and uses nothing of what it read), runs to the continuation with the inputs' as they were
    and the output's reading `out3_3` of the inputs. -/
theorem sound_kernel3 (c : Dev nD) (E : Set ℕ) (i : grid3.Coords) (arg1 : Memref sig .tc .vmem S10000x112 .f32) (harg1 : arg1.IsWhole) (arg2 : Memref sig .tc .vmem S112x16 .f32) (harg2 : arg2.IsWhole) (arg3 : Memref sig .tc .vmem S1x16 .f32) (harg3 : arg3.IsWhole) (arg4 : Memref sig .tc .vmem S10000x16 .f32) (harg4 : arg4.IsWhole)
    (x0 : Vec F S10000x112 .f32) (x1 : Vec F S112x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point `t`
    each input's buffer still at its block and the output's at `out3_3` of the input blocks; the invariant is the
    core's scoped buffers outside the windows and its random-number state, both untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Run.lean ====
/-
  The run of the whole program: fourteen steps — host operations, then a kernel region, four times over — each taking
  the core's unscoped buffers from one known valuation to the next.  W0 is the launch memory; a stretch of host
  operations takes W to the operations' fold over W; a region takes W to W with its output array replaced by what its
  ten write-backs leave (its input arrays are read, not written).  Every weakly fair execution terminates with every
  unscoped buffer at W14; the argument arrays are never written on the way, so they end as launched.
-/
import proofs.«109125_j11793980195110_1_alg».proof.Proof.KI.Reg0
import proofs.«109125_j11793980195110_1_alg».proof.Proof.KI.Reg1
import proofs.«109125_j11793980195110_1_alg».proof.Proof.KI.Reg2
import proofs.«109125_j11793980195110_1_alg».proof.Proof.KI.Reg3
import proofs.«109125_j11793980195110_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core c's buffers at launch. -/
abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
/-- Region 0 is entered here. -/
abbrev W3 : Dev nD → Valuation τ sig (Elt F) := fun c => StableHlo.after hostOps0_2 (W2 m c)
abbrev Vr3 : (c : Dev nD) → (b : Ref sig .tc) → Buf (Elt F) ((c : Thread nD τ).loc b) := fun c b => W3 m c b
/-- After region 0: its arrays at what the pipeline leaves (an input as entered, the output's write-backs folded in),
    every other buffer as entered. -/
def W4 (c : Dev nD) : Valuation τ sig (Elt F) :=
  Pipeline.withArrays spec0 c (W3 m c) fun w => (dat0 (Vr3 m) c).arrAt w cfg0.N
theorem W4_arr (c : Dev nD) (w : Fin cfg0.W) :
    W4 m c (Proc.devRef .tc (Pipeline.arrRef spec0 w)) = (dat0 (Vr3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same at the core's own references. -/
abbrev Vr4 : (c : Dev nD) → (b : Ref sig .tc) → Buf (Elt F) ((c : Thread nD τ).loc b) := fun c b => W4 m c b
theorem hF0 (c : Dev nD) (w : Fin cfg0.W) : (dat0 (Vr3 m) c).arrAt w cfg0.N = Vr4 m c (Pipeline.arrRef spec0 w) :=
  (W4_arr m c w).symm
theorem hrest0 (c : Dev nD) : ∀ b, b ∉ Finset.univ.image (Pipeline.arrRef spec0) → Vr4 m c b = Vr3 m c b :=
  fun b hb => W4_of_ne m c b fun w e => hb (Finset.mem_image.mpr ⟨w, Finset.mem_univ _, e⟩)

abbrev W5 : Dev nD → Valuation τ sig (Elt F) := fun c => StableHlo.after hostOps1 (W4 m c)
/-- Region 1 is entered here. -/
abbrev W6 : Dev nD → Valuation τ sig (Elt F) := fun c => StableHlo.after hostOps1_1 (W5 m c)
abbrev Vr6 : (c : Dev nD) → (b : Ref sig .tc) → Buf (Elt F) ((c : Thread nD τ).loc b) := fun c b => W6 m c b
/-- After region 1: its arrays at what the pipeline leaves (an input as entered, the output's write-backs folded in),
    every other buffer as entered. -/
def W7 (c : Dev nD) : Valuation τ sig (Elt F) :=
  Pipeline.withArrays spec1 c (W6 m c) fun w => (dat1 (Vr6 m) c).arrAt w cfg1.N
theorem W7_arr (c : Dev nD) (w : Fin cfg1.W) :
    W7 m c (Proc.devRef .tc (Pipeline.arrRef spec1 w)) = (dat1 (Vr6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- The same at the core's own references. -/
abbrev Vr7 : (c : Dev nD) → (b : Ref sig .tc) → Buf (Elt F) ((c : Thread nD τ).loc b) := fun c b => W7 m c b
theorem hF1 (c : Dev nD) (w : Fin cfg1.W) : (dat1 (Vr6 m) c).arrAt w cfg1.N = Vr7 m c (Pipeline.arrRef spec1 w) :=
  (W7_arr m c w).symm
theorem hrest1 (c : Dev nD) : ∀ b, b ∉ Finset.univ.image (Pipeline.arrRef spec1) → Vr7 m c b = Vr6 m c b :=
  fun b hb => W7_of_ne m c b fun w e => hb (Finset.mem_image.mpr ⟨w, Finset.mem_univ _, e⟩)

abbrev W8 : Dev nD → Valuation τ sig (Elt F) := fun c => StableHlo.after hostOps2 (W7 m c)
/-- Region 2 is entered here. -/
abbrev W9 : Dev nD → Valuation τ sig (Elt F) := fun c => StableHlo.after hostOps2_1 (W8 m c)
abbrev Vr9 : (c : Dev nD) → (b : Ref sig .tc) → Buf (Elt F) ((c : Thread nD τ).loc b) := fun c b => W9 m c b
/-- After region 2: its arrays at what the pipeline leaves (an input as entered, the output's write-backs folded in),
    every other buffer as entered. -/
def W10 (c : Dev nD) : Valuation τ sig (Elt F) :=
  Pipeline.withArrays spec2 c (W9 m c) fun w => (dat2 (Vr9 m) c).arrAt w cfg2.N
theorem W10_arr (c : Dev nD) (w : Fin cfg2.W) :
    W10 m c (Proc.devRef .tc (Pipeline.arrRef spec2 w)) = (dat2 (Vr9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
/-- The same at the core's own references. -/
abbrev Vr10 : (c : Dev nD) → (b : Ref sig .tc) → Buf (Elt F) ((c : Thread nD τ).loc b) := fun c b => W10 m c b
theorem hF2 (c : Dev nD) (w : Fin cfg2.W) : (dat2 (Vr9 m) c).arrAt w cfg2.N = Vr10 m c (Pipeline.arrRef spec2 w) :=
  (W10_arr m c w).symm
theorem hrest2 (c : Dev nD) : ∀ b, b ∉ Finset.univ.image (Pipeline.arrRef spec2) → Vr10 m c b = Vr9 m c b :=
  fun b hb => W10_of_ne m c b fun w e => hb (Finset.mem_image.mpr ⟨w, Finset.mem_univ _, e⟩)

abbrev W11 : Dev nD → Valuation τ sig (Elt F) := fun c => StableHlo.after hostOps3 (W10 m c)
abbrev W12 : Dev nD → Valuation τ sig (Elt F) := fun c => StableHlo.after hostOps3_1 (W11 m c)
/-- Region 3 is entered here. -/
abbrev W13 : Dev nD → Valuation τ sig (Elt F) := fun c => StableHlo.after hostOps3_2 (W12 m c)
abbrev Vr13 : (c : Dev nD) → (b : Ref sig .tc) → Buf (Elt F) ((c : Thread nD τ).loc b) := fun c b => W13 m c b
/-- After region 3: its arrays at what the pipeline leaves (an input as entered, the output's write-backs folded in),
    every other buffer as entered. -/
def W14 (c : Dev nD) : Valuation τ sig (Elt F) :=
  Pipeline.withArrays spec3 c (W13 m c) fun w => (dat3 (Vr13 m) c).arrAt w cfg3.N
theorem W14_arr (c : Dev nD) (w : Fin cfg3.W) :
    W14 m c (Proc.devRef .tc (Pipeline.arrRef spec3 w)) = (dat3 (Vr13 m) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m c (Proc.devRef .tc b) = W13 m c (Proc.devRef .tc b) := by
  unfold W14; exact Pipeline.withArrays_of_ne spec3 c _ _ b hb
/-- The same at the core's own references. -/
abbrev Vr14 : (c : Dev nD) → (b : Ref sig .tc) → Buf (Elt F) ((c : Thread nD τ).loc b) := fun c b => W14 m c b
theorem hF3 (c : Dev nD) (w : Fin cfg3.W) : (dat3 (Vr13 m) c).arrAt w cfg3.N = Vr14 m c (Pipeline.arrRef spec3 w) :=
  (W14_arr m c w).symm
theorem hrest3 (c : Dev nD) : ∀ b, b ∉ Finset.univ.image (Pipeline.arrRef spec3) → Vr14 m c b = Vr13 m c b :=
  fun b hb => W14_of_ne m c b fun w e => hb (Finset.mem_image.mpr ⟨w, Finset.mem_univ _, e⟩)

/-! ## The proof data family and the thread state -/

/-- No pipeline has a prefetched table. -/
abbrev adm : (p : Fin 4) → (pcfgs (F := F) p).Adm := fun p => (cfgs p).toPCfg_adm
/-- Every pipeline's proof data, each at the contents its region is entered with. -/
def pdats : (p : Fin 4) → (c : Dev nD) → Dat τ (Elt F) Unit ℕ (UR sig nD τ) ℕ (Pipeline.pin (pcfgs (F := F)) adm p) c
  | ⟨0, _⟩ => fun c => dat0 (Vr3 m) c
  | ⟨1, _⟩ => fun c => dat1 (Vr6 m) c
  | ⟨2, _⟩ => fun c => dat2 (Vr9 m) c
  | ⟨3, _⟩ => fun c => dat3 (Vr13 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every step: the core's generator register at some state, and the core
    owing nothing. -/
abbrev R (c : Dev nD) : sProp 𝕄 := iprop((∃ r, prngReg c r) ∗ ∃ W, owes (c : Thread nD τ) (0 : CellTallies nD τ sig Unit) W)
/-- A stretch of host operations as a step from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at W14, the generator register at some state. -/
abbrev Tₙ (c : Dev nD) : sProp 𝕄 := iprop(StableHlo.held (c : Thread nD τ) (Pipeline.ucRefs τ sig) (W14 m c) ∗ ∃ r, prngReg c r)

/-! ## The regions as steps -/

set_option backward.isDefEq.respectTransparency.types false in
/-- Region 0 over the thread state: entered with every unscoped buffer at `W3`, left with them at `W4`.  Its
    windows' arrays are taken out of the unscoped buffers at entry and put back, at what the write-backs leave, at
    exit; the generator register passes through the invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (Vr3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr3 m c) (Vr4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W6`, left with them at `W7`.  Its
    windows' arrays are taken out of the unscoped buffers at entry and put back, at what the write-backs leave, at
    exit; the generator register passes through the invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (Vr6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr6 m c) (Vr7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W9`, left with them at `W10`.  Its
    windows' arrays are taken out of the unscoped buffers at entry and put back, at what the write-backs leave, at
    exit; the generator register passes through the invariant; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (Vr9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr9 m c) (Vr10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W13`, left with them at `W14`.  Its
    windows' arrays are taken out of the unscoped buffers at entry and put back, at what the write-backs leave, at
    exit; the generator register passes through the invariant; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vr13 m) c).loose
  hwaits := Pipeline.hwaits_of_owed_zero _ _ _ _ L lv 3 fun _ _ => rfl
  pre c := iprop(StableHlo.held (c : Thread nD τ) (Pipeline.ucRefs τ sig) (W13 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (Vr13 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vr13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vr13 m c) (Vr14 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its steps, and the run -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .region (reg1 m),
    .host (hseg hostOps2 hostOps2_sub hostOps2_fresh (W7 m)),
    .host (hseg hostOps2_1 hostOps2_1_sub hostOps2_1_fresh (W8 m)),
    .region (reg2 m),
    .host (hseg hostOps3 hostOps3_sub hostOps3_fresh (W10 m)),
    .host (hseg hostOps3_1 hostOps3_1_sub hostOps3_1_fresh (W11 m)),
    .host (hseg hostOps3_2 hostOps3_2_sub hostOps3_2_fresh (W12 m)),
    .region (reg3 m) ]

set_option backward.isDefEq.respectTransparency.types false in
/-- THE RUN.  From any memory with zero counters every weakly fair execution of the program terminates, nothing
    faulting, and every unscoped buffer of every core ends at W14. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          StableHlo.seq hostOps3_1,
          StableHlo.seq hostOps3_2,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h => h)

section Keep

variable (c : Dev nD)

/-! ## A region writes its output array only -/

/-- Region 0 changes main_v30 only. -/
theorem keep_r0 (r : Ref sig .tc) (h : r ≠ main_v30) : W4 m c r = W3 m c r := by
  by_cases hr : ∃ w, Pipeline.arrRef spec0 w = r
  · obtain ⟨w, rfl⟩ := hr
    match w with
    | ⟨0, _⟩ => exact (W4_arr m c 0).trans (((dat0 (Vr3 m) c).arrAt_in 0 rfl _).trans (A_eq0 (Vr3 m) c 0))
    | ⟨1, _⟩ => exact (W4_arr m c 1).trans (((dat0 (Vr3 m) c).arrAt_in 1 rfl _).trans (A_eq0 (Vr3 m) c 1))
    | ⟨2, _⟩ => exact absurd rfl h
  · exact W4_of_ne m c r fun w e => hr ⟨w, e⟩

/-- Region 1 changes main_v48 only. -/
theorem keep_r1 (r : Ref sig .tc) (h : r ≠ main_v48) : W7 m c r = W6 m c r := by
  by_cases hr : ∃ w, Pipeline.arrRef spec1 w = r
  · obtain ⟨w, rfl⟩ := hr
    match w with
    | ⟨0, _⟩ => exact (W7_arr m c 0).trans (((dat1 (Vr6 m) c).arrAt_in 0 rfl _).trans (A_eq1 (Vr6 m) c 0))
    | ⟨1, _⟩ => exact (W7_arr m c 1).trans (((dat1 (Vr6 m) c).arrAt_in 1 rfl _).trans (A_eq1 (Vr6 m) c 1))
    | ⟨2, _⟩ => exact absurd rfl h
  · exact W7_of_ne m c r fun w e => hr ⟨w, e⟩

/-- Region 2 changes main_v66 only. -/
theorem keep_r2 (r : Ref sig .tc) (h : r ≠ main_v66) : W10 m c r = W9 m c r := by
  by_cases hr : ∃ w, Pipeline.arrRef spec2 w = r
  · obtain ⟨w, rfl⟩ := hr
    match w with
    | ⟨0, _⟩ => exact (W10_arr m c 0).trans (((dat2 (Vr9 m) c).arrAt_in 0 rfl _).trans (A_eq2 (Vr9 m) c 0))
    | ⟨1, _⟩ => exact (W10_arr m c 1).trans (((dat2 (Vr9 m) c).arrAt_in 1 rfl _).trans (A_eq2 (Vr9 m) c 1))
    | ⟨2, _⟩ => exact absurd rfl h
  · exact W10_of_ne m c r fun w e => hr ⟨w, e⟩

/-- Region 3 changes main_v86 only. -/
theorem keep_r3 (r : Ref sig .tc) (h : r ≠ main_v86) : W14 m c r = W13 m c r := by
  by_cases hr : ∃ w, Pipeline.arrRef spec3 w = r
  · obtain ⟨w, rfl⟩ := hr
    match w with
    | ⟨0, _⟩ => exact (W14_arr m c 0).trans (((dat3 (Vr13 m) c).arrAt_in 0 rfl _).trans (A_eq3 (Vr13 m) c 0))
    | ⟨1, _⟩ => exact (W14_arr m c 1).trans (((dat3 (Vr13 m) c).arrAt_in 1 rfl _).trans (A_eq3 (Vr13 m) c 1))
    | ⟨2, _⟩ => exact (W14_arr m c 2).trans (((dat3 (Vr13 m) c).arrAt_in 2 rfl _).trans (A_eq3 (Vr13 m) c 2))
    | ⟨3, _⟩ => exact absurd rfl h
  · exact W14_of_ne m c r fun w e => hr ⟨w, e⟩

/-! ## A stretch of host operations writes its own results only -/

variable (X : Valuation τ sig (Elt F))

theorem keep_h0 (r : Ref sig .tc) (h : r ∉ hostOps0_W) : StableHlo.after hostOps0 X r = X r := StableHlo.after_of_writes_sub hostOps0 X hostOps0_writes h
theorem keep_h0_1 (r : Ref sig .tc) (h : r ∉ hostOps0_1_W) : StableHlo.after hostOps0_1 X r = X r := StableHlo.after_of_writes_sub hostOps0_1 X hostOps0_1_writes h
theorem keep_h0_2 (r : Ref sig .tc) (h : r ∉ hostOps0_2_W) : StableHlo.after hostOps0_2 X r = X r := StableHlo.after_of_writes_sub hostOps0_2 X hostOps0_2_writes h
theorem keep_h1 (r : Ref sig .tc) (h : r ∉ hostOps1_W) : StableHlo.after hostOps1 X r = X r := StableHlo.after_of_writes_sub hostOps1 X hostOps1_writes h
theorem keep_h1_1 (r : Ref sig .tc) (h : r ∉ hostOps1_1_W) : StableHlo.after hostOps1_1 X r = X r := StableHlo.after_of_writes_sub hostOps1_1 X hostOps1_1_writes h
theorem keep_h2 (r : Ref sig .tc) (h : r ∉ hostOps2_W) : StableHlo.after hostOps2 X r = X r := StableHlo.after_of_writes_sub hostOps2 X hostOps2_writes h
theorem keep_h2_1 (r : Ref sig .tc) (h : r ∉ hostOps2_1_W) : StableHlo.after hostOps2_1 X r = X r := StableHlo.after_of_writes_sub hostOps2_1 X hostOps2_1_writes h
theorem keep_h3 (r : Ref sig .tc) (h : r ∉ hostOps3_W) : StableHlo.after hostOps3 X r = X r := StableHlo.after_of_writes_sub hostOps3 X hostOps3_writes h
theorem keep_h3_1 (r : Ref sig .tc) (h : r ∉ hostOps3_1_W) : StableHlo.after hostOps3_1 X r = X r := StableHlo.after_of_writes_sub hostOps3_1 X hostOps3_1_writes h
theorem keep_h3_2 (r : Ref sig .tc) (h : r ∉ hostOps3_2_W) : StableHlo.after hostOps3_2 X r = X r := StableHlo.after_of_writes_sub hostOps3_2 X hostOps3_2_writes h

/-! ## From one region's entry to the next -/

/-- From the launch to region 0's entry: nothing written but the host operations' own results. -/
theorem keep_0_3 (r : Ref sig .tc) (h0 : r ∉ hostOps0_W) (h1 : r ∉ hostOps0_1_W) (h2 : r ∉ hostOps0_2_W) : W3 m c r = W0 m c r :=
  (keep_h0_2 _ r h2).trans ((keep_h0_1 _ r h1).trans (keep_h0 _ r h0))
/-- From region 0's exit to region 1's entry. -/
theorem keep_4_6 (r : Ref sig .tc) (h1 : r ∉ hostOps1_W) (h2 : r ∉ hostOps1_1_W) : W6 m c r = W4 m c r :=
  (keep_h1_1 _ r h2).trans (keep_h1 _ r h1)
/-- From region 1's exit to region 2's entry. -/
theorem keep_7_9 (r : Ref sig .tc) (h1 : r ∉ hostOps2_W) (h2 : r ∉ hostOps2_1_W) : W9 m c r = W7 m c r :=
  (keep_h2_1 _ r h2).trans (keep_h2 _ r h1)
/-- From region 2's exit to the last host operations. -/
theorem keep_10_12 (r : Ref sig .tc) (h1 : r ∉ hostOps3_W) (h2 : r ∉ hostOps3_1_W) : W12 m c r = W10 m c r :=
  (keep_h3_1 _ r h2).trans (keep_h3 _ r h1)
/-- From region 0's entry to region 1's entry, for a buffer none of that writes. -/
theorem keep_3_6 (r : Ref sig .tc) (h : r ≠ main_v30) (h1 : r ∉ hostOps1_W) (h2 : r ∉ hostOps1_1_W) : W6 m c r = W3 m c r :=
  (keep_4_6 m c r h1 h2).trans (keep_r0 m c r h)
theorem keep_6_9 (r : Ref sig .tc) (h : r ≠ main_v48) (h1 : r ∉ hostOps2_W) (h2 : r ∉ hostOps2_1_W) : W9 m c r = W6 m c r :=
  (keep_7_9 m c r h1 h2).trans (keep_r1 m c r h)
theorem keep_9_12 (r : Ref sig .tc) (h : r ≠ main_v66) (h1 : r ∉ hostOps3_W) (h2 : r ∉ hostOps3_1_W) : W12 m c r = W9 m c r :=
  (keep_10_12 m c r h1 h2).trans (keep_r2 m c r h)

/-- A buffer that no step up to region 3's entry writes holds there what was launched. -/
theorem w13_const (r : Ref sig .tc) (h0 : r ∉ hostOps0_W := by decide) (h1 : r ∉ hostOps0_1_W := by decide) (h2 : r ∉ hostOps0_2_W := by decide)
    (g0 : r ≠ main_v30 := by decide) (h3 : r ∉ hostOps1_W := by decide) (h4 : r ∉ hostOps1_1_W := by decide)
    (g1 : r ≠ main_v48 := by decide) (h5 : r ∉ hostOps2_W := by decide) (h6 : r ∉ hostOps2_1_W := by decide)
    (g2 : r ≠ main_v66 := by decide) (h7 : r ∉ hostOps3_W := by decide) (h8 : r ∉ hostOps3_1_W := by decide)
    (h9 : r ∉ hostOps3_2_W := by decide) : W13 m c r = W0 m c r :=
  (keep_h3_2 _ r h9).trans ((keep_9_12 m c r g2 h7 h8).trans ((keep_6_9 m c r g1 h5 h6).trans
    ((keep_3_6 m c r g0 h3 h4).trans (keep_0_3 m c r h0 h1 h2))))

/-- A buffer that no step writes ends as launched. -/
theorem w14_const (r : Ref sig .tc) (h0 : r ∉ hostOps0_W := by decide) (h1 : r ∉ hostOps0_1_W := by decide) (h2 : r ∉ hostOps0_2_W := by decide)
    (g0 : r ≠ main_v30 := by decide) (h3 : r ∉ hostOps1_W := by decide) (h4 : r ∉ hostOps1_1_W := by decide)
    (g1 : r ≠ main_v48 := by decide) (h5 : r ∉ hostOps2_W := by decide) (h6 : r ∉ hostOps2_1_W := by decide)
    (g2 : r ≠ main_v66 := by decide) (h7 : r ∉ hostOps3_W := by decide) (h8 : r ∉ hostOps3_1_W := by decide)
    (h9 : r ∉ hostOps3_2_W := by decide) (g3 : r ≠ main_v86 := by decide) : W14 m c r = m ((c : Thread nD τ).loc r) :=
  (keep_r3 m c r g3).trans (w13_const m c r h0 h1 h2 g0 h3 h4 g1 h5 h6 g2 h7 h8 h9)

end Keep

/-! ## The frame, and the run with the result's value -/

/-- Every weakly fair execution terminates, nothing faulting, with the result array at W14's and the ten argument
    arrays as launched. -/
theorem run_val (ρ : Dev nD → PrngReg) : θ_run defs (onTc (τ := τ) (main (F := F))) ⟨m, fun _ => 0, ρ⟩ (fun r => ∀ c : Dev nD,
      r.2.mem ((c.tc : Thread nD τ).loc main_v86) = W14 m c main_v86
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v86 (by decide)),
      (h c _ (mem_uc main_arg0 (by decide))).trans (w14_const m c main_arg0),
      (h c _ (mem_uc main_arg1 (by decide))).trans (w14_const m c main_arg1),
      (h c _ (mem_uc main_arg2 (by decide))).trans (w14_const m c main_arg2),
      (h c _ (mem_uc main_arg3 (by decide))).trans (w14_const m c main_arg3),
      (h c _ (mem_uc main_arg4 (by decide))).trans (w14_const m c main_arg4),
      (h c _ (mem_uc main_arg5 (by decide))).trans (w14_const m c main_arg5),
      (h c _ (mem_uc main_arg6 (by decide))).trans (w14_const m c main_arg6),
      (h c _ (mem_uc main_arg7 (by decide))).trans (w14_const m c main_arg7),
      (h c _ (mem_uc main_arg8 (by decide))).trans (w14_const m c main_arg8),
      (h c _ (mem_uc main_arg9 (by decide))).trans (w14_const m c main_arg9)⟩) (run_all m ρ)

/-- THE FRAME: the program runs to the end, faults nowhere, and leaves its ten argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run_val m ρ)

end Cert.KernelIdeal.Fr

end
-- ==== Proof.LibNary3.lean ====
/-
  A host operation with a literal family of THREE operand buffers (a three-operand concatenate), read at its result:
  the operation's function of the three operands' contents, each read at its own buffer — so that reading a line of
  operations can go on into the operands.  (The library states this for a family of four; over a family given only as
  a function of the index the operands' buffers are not literal and the reading stops there.)  With it, the one-pass
  reading of a line of operations that contains such an operation.
-/
import Idealize.ShloMosaic.Lib.StableHlo.Run

namespace Cert.Nary3

open Idealize.ShloMosaic Idealize.ShloMosaic.StableHlo

variable {nD : Nat} {τ : Topo} {sig : RefSig} {Val : EltTy → Type}
variable {x a b y : Ref sig .tc}

/-- The result of an operation over the three literal operands x, a, b, read at its result buffer y. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, in the form the one-pass reading rewrites with. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.Nary3

/-- The one-pass reading of a line of host operations, with the three-operand family read at its literal operands. -/
macro "after_results_simp3" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Cert.Nary3.nary3_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))
-- ==== Proof.Spec.lean ====
/-
  The network both programs compute, written once over the host's own operations.

  A graph of 100000 nodes is given by 1600000 directed edges (row 0 of the edge array: sources, row 1: targets);
  every node also gets a loop to itself, so the edge lists used are the given ones followed by 0, 1, …, 99999.
  The degree of a node counts the listed edges that end in it; an edge from s to d is weighted
  dinv(s) * dinv(d) with dinv = 1/sqrt(degree) where the degree is positive and 0 elsewhere.
  One convolution sends node features H : [100000, C] to
      relu ( scatter-add over the edges of (H[s] * weight)  into the row of d   +   bias ),
  applied three times, each time to a product of the previous features with a weight matrix; the three feature
  arrays are laid side by side and go through one more rectified dense layer.

  The two matrix products of a layer and the last dense layer are PARAMETERS here (mm1, mm2, mm3, dense): the
  reference forms them with the host's dot_general on whole arrays, the kernel with the matrix unit on blocks
  of 10000 rows.  Everything else is the same list of host operations in both programs, so it is stated once,
  as the operations themselves.
-/
import proofs.«109125_j11793980195110_1_alg».proof.KernelIdeal

noncomputable section

namespace Cert.Gcn

open Idealize.ShloMosaic Cert.KernelIdeal Cert.KernelIdeal.Facts₀ Cert.KernelIdeal.Facts

variable {F : FTy → Type} [FloatOps F] [Cert.KernelIdeal.Facts]

/-- The sources, loops included. -/
def src (e : (⟨S2x1600000, .i32⟩ : BufTy).Contents (Elt F)) : (⟨S1700000, .i32⟩ : BufTy).Contents (Elt F) :=
  concatenate S1700000 0 [⟨S1600000, shapeCast _ (extractStridedSlice S1x1600000 ![0, 0] e slices_S2x1600000_S1x1600000_0_0) shapeCasts_S1x1600000_S1600000⟩,
    ⟨S100000, iotaInDim S100000 32 0⟩] concatenates_S1600000_S100000_S1700000_d0

/-- The targets, loops included. -/
def dst (e : (⟨S2x1600000, .i32⟩ : BufTy).Contents (Elt F)) : (⟨S1700000, .i32⟩ : BufTy).Contents (Elt F) :=
  concatenate S1700000 0 [⟨S1600000, shapeCast _ (extractStridedSlice S1x1600000 ![1, 0] e slices_S2x1600000_S1x1600000_1_0) shapeCasts_S1x1600000_S1600000⟩,
    ⟨S100000, iotaInDim S100000 32 0⟩] concatenates_S1600000_S100000_S1700000_d0

/-- A list of node numbers as a column of row numbers to gather at: a negative number counts from the end. -/
def wrap (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- A list of node numbers as a column of row numbers to scatter to. -/
def col (d : (⟨S1700000, .i32⟩ : BufTy).Contents (Elt F)) : (⟨S1700000x1, .i32⟩ : BufTy).Contents (Elt F) :=
  broadcastInDim S1700000x1 ![0] bcast_S1700000_S1700000x1_0 d

/-- The number of listed edges ending in each node. -/
def deg (e : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32)) (col (dst e))
    (broadcastInDim S1700000 ![] bcast_S_S1700000 (constant S_ .f32 0x3F800000#32))

/-- One over the square root of the degree where it is positive, zero elsewhere. -/
def dinv (e : (⟨S2x1600000, .i32⟩ : BufTy).Contents (Elt F)) : (⟨S100000, .f32⟩ : BufTy).Contents (Elt F) :=
  select (cmpf .ogt (deg e) (broadcastInDim S100000 ![] bcast_S_S100000 (constant S_ .f32 0x00000000#32)))
    (Host.rsqrt (deg e)) (broadcastInDim S100000 ![] bcast_S_S100000 (id (constant S_ .f32 0x00000000#32)))

/-- The weight of each listed edge: dinv at its source times dinv at its target. -/
def weight (e : (⟨S2x1600000, .i32⟩ : BufTy).Contents (Elt F)) : (⟨S1700000, .f32⟩ : BufTy).Contents (Elt F) :=
  mulf (Host.gather gather_S100000_S1700000x1_S1700000_n_0_n_n_0_1_1 (dinv e) (wrap (src e)))
    (Host.gather gather_S100000_S1700000x1_S1700000_n_0_n_n_0_1_1 (dinv e) (wrap (dst e)))

/-- The weights as a column. -/
def wcol (e : (⟨S2x1600000, .i32⟩ : BufTy).Contents (Elt F)) : (⟨S1700000x1, .f32⟩ : BufTy).Contents (Elt F) :=
  broadcastInDim S1700000x1 ![0] bcast_S1700000_S1700000x1_0 (weight e)

/-- One convolution over 64 features from given edge lists and weights: gather the sources' rows, weigh them, add them
    into the targets' rows, add the bias, clamp at zero. -/
def conv64 (h : (⟨S100000x64, .f32⟩ : BufTy).Contents (Elt F)) (s d : (⟨S1700000, .i32⟩ : BufTy).Contents (Elt F))
    (w : (⟨S1700000, .f32⟩ : BufTy).Contents (Elt F)) (b : (⟨S64, .f32⟩ : BufTy).Contents (Elt F)) :
    (⟨S100000x64, .f32⟩ : BufTy).Contents (Elt F) :=
  maximumf
    (addf
      (Host.scatterAdd scatter_S100000x64_S1700000x1_S1700000x64_1_0_0_1
        (broadcastInDim S100000x64 ![] bcast_S_S100000x64 (constant S_ .f32 0x00000000#32)) (col d)
        (mulf (Host.gather gather_S100000x64_S1700000x1_S1700000x64_1_0_n_n_0_1_164 h (wrap s))
          (broadcastInDim S1700000x64 ![0, 1] bcast_S1700000x1_S1700000x64_0_1
            (broadcastInDim S1700000x1 ![0] bcast_S1700000_S1700000x1_0 w))))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The same over 32 features. -/
def conv32 (h : (⟨S100000x32, .f32⟩ : BufTy).Contents (Elt F)) (s d : (⟨S1700000, .i32⟩ : BufTy).Contents (Elt F))
    (w : (⟨S1700000, .f32⟩ : BufTy).Contents (Elt F)) (b : (⟨S32, .f32⟩ : BufTy).Contents (Elt F)) :
    (⟨S100000x32, .f32⟩ : BufTy).Contents (Elt F) :=
  maximumf
    (addf
      (Host.scatterAdd scatter_S100000x32_S1700000x1_S1700000x32_1_0_0_1
        (broadcastInDim S100000x32 ![] bcast_S_S100000x32 (constant S_ .f32 0x00000000#32)) (col d)
        (mulf (Host.gather gather_S100000x32_S1700000x1_S1700000x32_1_0_n_n_0_1_132 h (wrap s))
          (broadcastInDim S1700000x32 ![0, 1] bcast_S1700000x1_S1700000x32_0_1
            (broadcastInDim S1700000x1 ![0] bcast_S1700000_S1700000x1_0 w))))
      (broadcastInDim S100000x32 ![0, 1] bcast_S1x32_S100000x32_0_1 (broadcastInDim S1x32 ![1] bcast_S32_S1x32_1 b)))
    (broadcastInDim S100000x32 ![] bcast_S_S100000x32 (constant S_ .f32 0x00000000#32))

/-- The same over 16 features. -/
def conv16 (h : (⟨S100000x16, .f32⟩ : BufTy).Contents (Elt F)) (s d : (⟨S1700000, .i32⟩ : BufTy).Contents (Elt F))
    (w : (⟨S1700000, .f32⟩ : BufTy).Contents (Elt F)) (b : (⟨S16, .f32⟩ : BufTy).Contents (Elt F)) :
    (⟨S100000x16, .f32⟩ : BufTy).Contents (Elt F) :=
  maximumf
    (addf
      (Host.scatterAdd scatter_S100000x16_S1700000x1_S1700000x16_1_0_0_1
        (broadcastInDim S100000x16 ![] bcast_S_S100000x16 (constant S_ .f32 0x00000000#32)) (col d)
        (mulf (Host.gather gather_S100000x16_S1700000x1_S1700000x16_1_0_n_n_0_1_116 h (wrap s))
          (broadcastInDim S1700000x16 ![0, 1] bcast_S1700000x1_S1700000x16_0_1
            (broadcastInDim S1700000x1 ![0] bcast_S1700000_S1700000x1_0 w))))
      (broadcastInDim S100000x16 ![0, 1] bcast_S1x16_S100000x16_0_1 (broadcastInDim S1x16 ![1] bcast_S16_S1x16_1 b)))
    (broadcastInDim S100000x16 ![] bcast_S_S100000x16 (constant S_ .f32 0x00000000#32))

/-- Three feature arrays laid side by side. -/
def join (f1 : (⟨S100000x64, .f32⟩ : BufTy).Contents (Elt F)) (f2 : (⟨S100000x32, .f32⟩ : BufTy).Contents (Elt F))
    (f3 : (⟨S100000x16, .f32⟩ : BufTy).Contents (Elt F)) : (⟨S100000x112, .f32⟩ : BufTy).Contents (Elt F) :=
  concatenate S100000x112 1 [⟨S100000x64, f1⟩, ⟨S100000x32, f2⟩, ⟨S100000x16, f3⟩]
    concatenates_S100000x64_S100000x32_S100000x16_S100000x112_d1

/-- The whole network over given products (see the head of this file). -/
def net
    (mm1 : (⟨S100000x128, .f32⟩ : BufTy).Contents (Elt F) → (⟨S128x64, .f32⟩ : BufTy).Contents (Elt F) → (⟨S100000x64, .f32⟩ : BufTy).Contents (Elt F))
    (mm2 : (⟨S100000x64, .f32⟩ : BufTy).Contents (Elt F) → (⟨S64x32, .f32⟩ : BufTy).Contents (Elt F) → (⟨S100000x32, .f32⟩ : BufTy).Contents (Elt F))
    (mm3 : (⟨S100000x32, .f32⟩ : BufTy).Contents (Elt F) → (⟨S32x16, .f32⟩ : BufTy).Contents (Elt F) → (⟨S100000x16, .f32⟩ : BufTy).Contents (Elt F))
    (dense : (⟨S100000x112, .f32⟩ : BufTy).Contents (Elt F) → (⟨S112x16, .f32⟩ : BufTy).Contents (Elt F) → (⟨S16, .f32⟩ : BufTy).Contents (Elt F) → (⟨S100000x16, .f32⟩ : BufTy).Contents (Elt F))
    (e : (⟨S2x1600000, .i32⟩ : BufTy).Contents (Elt F)) (x : (⟨S100000x128, .f32⟩ : BufTy).Contents (Elt F))
    (W1 : (⟨S128x64, .f32⟩ : BufTy).Contents (Elt F)) (b1 : (⟨S64, .f32⟩ : BufTy).Contents (Elt F))
    (W2 : (⟨S64x32, .f32⟩ : BufTy).Contents (Elt F)) (b2 : (⟨S32, .f32⟩ : BufTy).Contents (Elt F))
    (W3 : (⟨S32x16, .f32⟩ : BufTy).Contents (Elt F)) (b3 : (⟨S16, .f32⟩ : BufTy).Contents (Elt F))
    (Wfc : (⟨S112x16, .f32⟩ : BufTy).Contents (Elt F)) (bfc : (⟨S16, .f32⟩ : BufTy).Contents (Elt F)) :
    (⟨S100000x16, .f32⟩ : BufTy).Contents (Elt F) :=
  dense
    (join (conv64 (mm1 x W1) (src e) (dst e) (weight e) b1)
      (conv32 (mm2 (conv64 (mm1 x W1) (src e) (dst e) (weight e) b1) W2) (src e) (dst e) (weight e) b2)
      (conv16 (mm3 (conv32 (mm2 (conv64 (mm1 x W1) (src e) (dst e) (weight e) b1) W2) (src e) (dst e) (weight e) b2) W3)
        (src e) (dst e) (weight e) b3))
    Wfc bfc

/-- The host's last layer: dot_general, the bias laid over the rows, clamped at zero. -/
def hostDense (d : DotDims S100000x112 S112x16 S100000x16) (cat : (⟨S100000x112, .f32⟩ : BufTy).Contents (Elt F)) (W : (⟨S112x16, .f32⟩ : BufTy).Contents (Elt F))
    (b : (⟨S16, .f32⟩ : BufTy).Contents (Elt F)) : (⟨S100000x16, .f32⟩ : BufTy).Contents (Elt F) :=
  maximumf
    (addf (Host.dotGeneral d none cat W)
      (broadcastInDim S100000x16 ![0, 1] bcast_S1x16_S100000x16_0_1 (broadcastInDim S1x16 ![1] bcast_S16_S1x16_1 b)))
    (broadcastInDim S100000x16 ![] bcast_S_S100000x16 (constant S_ .f32 0x00000000#32))

end Cert.Gcn

end
-- ==== Proof.RefValue.lean ====
/-
  The value the reference program leaves in its result buffer, as the network of the specification.

  The reference computes, from the edge array and the node features, three graph convolutions and a last dense
  layer, every matrix product by the host's dot_general on whole arrays.  Read as a term of its ten arguments, that
  value is the specification's network with dot_general for each of the three products and the host's last layer
  (dot_general, the bias laid over the rows, clamped at zero) for the dense layer: the two sides are the same tree of
  host operations, and the shape and dimension records the two programs name separately have the same fields, so the
  equation holds by unfolding the definitions on both sides.  It holds for any float values.
-/
import proofs.«109125_j11793980195110_1_alg».proof.Proof.RefRun
import proofs.«109125_j11793980195110_1_alg».proof.Proof.Spec

noncomputable section

namespace Cert.ReferenceIdeal.RefValue

open Idealize.ShloMosaic Idealize.ShloMosaic.TcCoe Idealize.SL.Sem Idealize.ShloMosaic.StableHlo

/-- The reference's value is the network of the specification, with the host's dot_general as each of the three
    products and the host's last layer as the dense layer: the two sides are the same tree of host operations. -/
theorem res_eq_net {F : FTy → Type} [FloatOps F] [Cert.KernelIdeal.Facts] [Cert.ReferenceIdeal.Facts]
    (m : (ℓ : Loc Cert.ReferenceIdeal.nD Cert.ReferenceIdeal.τ Cert.ReferenceIdeal.sig) → Buf (Elt F) ℓ)
    (c : Dev Cert.ReferenceIdeal.nD) :
    Cert.ReferenceIdeal.ValueP.res_main_v141 (F := F) m c
      = Cert.Gcn.net (F := F)
          (fun l r => Host.dotGeneral Cert.ReferenceIdeal.dot_S100000x128_S128x64_S100000x64_1_0_0_1_n_n none l r)
          (fun l r => Host.dotGeneral Cert.ReferenceIdeal.dot_S100000x64_S64x32_S100000x32_1_0_0_1_n_n none l r)
          (fun l r => Host.dotGeneral Cert.ReferenceIdeal.dot_S100000x32_S32x16_S100000x16_1_0_0_1_n_n none l r)
          (Cert.Gcn.hostDense Cert.ReferenceIdeal.dot_S100000x112_S112x16_S100000x16_1_0_0_1_n_n)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9)) := by
  unfold Cert.ReferenceIdeal.ValueP.res_main_v141 Cert.Gcn.net Cert.Gcn.hostDense Cert.Gcn.join Cert.Gcn.conv64 Cert.Gcn.conv32 Cert.Gcn.conv16
    Cert.Gcn.weight Cert.Gcn.dinv Cert.Gcn.deg Cert.Gcn.col Cert.Gcn.wrap Cert.Gcn.src Cert.Gcn.dst
  rfl

end Cert.ReferenceIdeal.RefValue

end
-- ==== Proof.HostValues.lean ====
/-
  What the host operations between the kernel regions leave in the buffers the later steps read, as functions of
  ANY buffer contents X they start from: the edge lists with their loops and the edge weights (the operations before
  the first region); one convolution (the operations after each of the first three regions); the three feature arrays
  laid side by side and the last bias as a row (the operations before the last region).  Each is the corresponding
  definition of the network (Cert.Gcn), the operations being the same ones.
-/
import proofs.«109125_j11793980195110_1_alg».proof.Proof.Gen.KernelIdeal.Launch
import proofs.«109125_j11793980195110_1_alg».proof.Proof.Spec
import proofs.«109125_j11793980195110_1_alg».proof.Proof.LibNary3
import Idealize.ShloMosaic.Lib.StableHlo.Run

noncomputable section

namespace Cert.KernelIdeal.Hv

open Idealize.ShloMosaic Idealize.ShloMosaic.TcCoe Idealize.ShloMosaic.StableHlo
open Cert.KernelIdeal Cert.KernelIdeal.Gen Cert.KernelIdeal.Facts₀ Cert.KernelIdeal.Facts

variable {F : FTy → Type} [FloatOps F]

/-- The first convolution: from the product in main_v30, the edge lists in main_v5 / main_v6, the weights in
    main_v29 and the bias main_arg3. -/
theorem conv1 (X : Valuation τ sig (Elt F)) :
    after hostOps1_1 (after hostOps1 X) main_v47
      = Cert.Gcn.conv64 (F := F) (X main_v30) (X main_v5) (X main_v6) (X main_v29) (X main_arg3) := by
  after_results_simp3
  rfl

/-- The second convolution: from the product in main_v48 and the bias main_arg5. -/
theorem conv2 (X : Valuation τ sig (Elt F)) :
    after hostOps2_1 (after hostOps2 X) main_v65
      = Cert.Gcn.conv32 (F := F) (X main_v48) (X main_v5) (X main_v6) (X main_v29) (X main_arg5) := by
  after_results_simp3
  rfl

/-- The third convolution: from the product in main_v66 and the bias main_arg7. -/
theorem conv3 (X : Valuation τ sig (Elt F)) :
    after hostOps3_1 (after hostOps3 X) main_v83
      = Cert.Gcn.conv16 (F := F) (X main_v66) (X main_v5) (X main_v6) (X main_v29) (X main_arg7) := by
  after_results_simp3
  rfl

/-- Before the first region: the sources with their loops. -/
theorem pre_src (X : Valuation τ sig (Elt F)) :
    after hostOps0_2 (after hostOps0_1 (after hostOps0 X)) main_v5 = Cert.Gcn.src (F := F) (X main_arg0) := by
  after_results_simp3
  rfl

/-- Before the first region: the targets with their loops. -/
theorem pre_dst (X : Valuation τ sig (Elt F)) :
    after hostOps0_2 (after hostOps0_1 (after hostOps0 X)) main_v6 = Cert.Gcn.dst (F := F) (X main_arg0) := by
  after_results_simp3
  rfl

/-- Before the first region: the edge weights. -/
theorem pre_weight (X : Valuation τ sig (Elt F)) :
    after hostOps0_2 (after hostOps0_1 (after hostOps0 X)) main_v29 = Cert.Gcn.weight (F := F) (X main_arg0) := by
  after_results_simp3
  rfl

/-- Before the last region: the three feature arrays side by side. -/
theorem tail_join (X : Valuation τ sig (Elt F)) :
    after hostOps3_2 X main_v84 = Cert.Gcn.join (F := F) (X main_v47) (X main_v65) (X main_v83) := by
  after_results_simp3
  rfl

/-- Before the last region: the last bias as a row. -/
theorem tail_bias (X : Valuation τ sig (Elt F)) :
    after hostOps3_2 X main_v85 = shapeCast S1x16 (X main_arg9) Cert.KernelIdeal.Gen.shapeCasts_S16_S1x16 := by
  after_results_simp3
  rfl

end Cert.KernelIdeal.Hv

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«109125_j11793980195110_1_alg».proof.Proof.LibMatmulPlain
import proofs.«109125_j11793980195110_1_alg».proof.Proof.LibDotsNT
import proofs.«109125_j11793980195110_1_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.LibDenseBranch.lean ====
/-
  One dense branch of the network, read at an entry, over literal-free extents.

  For an [a, k] array h, a [k, n] weight W and a [1, n] bias row B:
    act h W B (r, q)              = max (sum over c of h(r, c) * W(c, q) + B(0, q)) 0      (the rectified layer)
    gate h W1 B1 W2 B2 (r, q)     = act h W1 B1 (r, q) * act h W2 B2 (r, q)               (the product branch)
  and the raw product h W (Cert.Dense.prod) feeds the edge aggregation.

  Each is spelt twice in the programs: on a tile of rows by the matrix unit (operands rounded to bfloat16, which
  on the extended reals changes nothing; the bias row and the zero spread over the tile), and on the whole array
  by the host's dot_general with the bias laid over the rows and a scalar zero laid over everything.  Both
  spellings are the functions above; and an entry of the whole array's function is the same function of the
  block of rows that holds it, since an entry of a product only reads its own row of h.
-/
import Idealize.ShloMosaic.Lib.Pipeline.Value
import Idealize.ShloMosaic.Lib.ValueIdx
import Idealize.ShloMosaic.Lib.ValueLayout
import Idealize.ShloMosaic.PureOps.Ideal.Laws
import proofs.«109125_j11793980195110_1_alg».proof.Proof.LibDenseLayer

noncomputable section

open scoped BigOperators

namespace Cert.Branch

open Idealize.ShloMosaic Idealize.ShloMosaic.ValueIdx

variable {a k n N : ℕ}

/-- The rectified dense layer at an entry: the larger of (h W + B)(r, q) and zero. -/
def act (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => max (Cert.Dense.biased h W B i) (Ideal.ofBits .f32 0x00000000#32)

/-- The product branch at an entry: two rectified layers of the same h, multiplied. -/
def gate (h : (⟨2, ![a, k]⟩ : Shape).Idx → EReal) (W1 : (⟨2, ![k, n]⟩ : Shape).Idx → EReal)
    (B1 : (⟨2, ![1, n]⟩ : Shape).Idx → EReal) (W2 : (⟨2, ![k, n]⟩ : Shape).Idx → EReal)
    (B2 : (⟨2, ![1, n]⟩ : Shape).Idx → EReal) : (⟨2, ![a, n]⟩ : Shape).Idx → EReal :=
  fun i => act h W1 B1 i * act h W2 B2 i

/-! ## An entry only reads its own row -/

/-- If row (j 0) of the block xb is row (i 0) of the array X, the weights agree and the columns agree, the
    product's entry j over the block is the product's entry i over the array. -/
theorem prod_at (X : (⟨2, ![N, k]⟩ : Shape).Idx → EReal) (W : (⟨2, ![k, n]⟩ : Shape).Idx → EReal)
    (xb : (⟨2, ![a, k]⟩ : Shape).Idx → EReal) (wb : (⟨2, ![k, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw : ∀ y, wb y = W y) (hq : j 1 = i 1) :
    Cert.Dense.prod xb wb j = Cert.Dense.prod X W i := by
  show ∑ c : Fin k, xb (ix2 (j 0) c) * wb (ix2 c (j 1)) = ∑ c : Fin k, X (ix2 (i 0) c) * W (ix2 c (i 1))
  refine Finset.sum_congr rfl fun c _ => ?_
  rw [hx c, hw, hq]

/-- The same for the rectified layer. -/
theorem act_at (X : (⟨2, ![N, k]⟩ : Shape).Idx → EReal) (W : (⟨2, ![k, n]⟩ : Shape).Idx → EReal)
    (B : (⟨2, ![1, n]⟩ : Shape).Idx → EReal)
    (xb : (⟨2, ![a, k]⟩ : Shape).Idx → EReal) (wb : (⟨2, ![k, n]⟩ : Shape).Idx → EReal)
    (bb : (⟨2, ![1, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw : ∀ y, wb y = W y) (hb : ∀ y, bb y = B y)
    (hq : j 1 = i 1) :
    act xb wb bb j = act X W B i := by
  show max (Cert.Dense.prod xb wb j + bb (ix2 (0 : Fin 1) (j 1))) _
      = max (Cert.Dense.prod X W i + B (ix2 (0 : Fin 1) (i 1))) _
  rw [prod_at X W xb wb j i hx hw hq, hb, hq]

/-- The same for the product branch. -/
theorem gate_at (X : (⟨2, ![N, k]⟩ : Shape).Idx → EReal) (W1 : (⟨2, ![k, n]⟩ : Shape).Idx → EReal)
    (B1 : (⟨2, ![1, n]⟩ : Shape).Idx → EReal) (W2 : (⟨2, ![k, n]⟩ : Shape).Idx → EReal)
    (B2 : (⟨2, ![1, n]⟩ : Shape).Idx → EReal)
    (xb : (⟨2, ![a, k]⟩ : Shape).Idx → EReal) (w1 : (⟨2, ![k, n]⟩ : Shape).Idx → EReal)
    (b1 : (⟨2, ![1, n]⟩ : Shape).Idx → EReal) (w2 : (⟨2, ![k, n]⟩ : Shape).Idx → EReal)
    (b2 : (⟨2, ![1, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw1 : ∀ y, w1 y = W1 y) (hb1 : ∀ y, b1 y = B1 y)
    (hw2 : ∀ y, w2 y = W2 y) (hb2 : ∀ y, b2 y = B2 y) (hq : j 1 = i 1) :
    gate xb w1 b1 w2 b2 j = gate X W1 B1 W2 B2 i := by
  show act xb w1 b1 j * act xb w2 b2 j = act X W1 B1 i * act X W2 B2 i
  rw [act_at X W1 B1 xb w1 b1 j i hx hw1 hb1 hq, act_at X W2 B2 xb w2 b2 j i hx hw2 hb2 hq]

/-! ## The tile's spelling and the host's spelling -/

section Spellings

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- On a tile: the matrix unit's product into zero, plus the bias row spread over the rows, against a zero
    spread over the tile, is the rectified layer. -/
theorem tile_act (x : FVec Ideal ⟨2, ![a, k]⟩ .f32) (W : FVec Ideal ⟨2, ![k, n]⟩ .f32)
    (b : FVec Ideal ⟨2, ![1, n]⟩ .f32) (hb : FTy.bf16.bits < FTy.f32.bits)
    (hc3 : (⟨2, ![1, n]⟩ : Shape).ShapeCasts ⟨2, ![1, n]⟩) (hb3 : (⟨2, ![1, n]⟩ : Shape).Broadcasts ⟨2, ![a, n]⟩) :
    maximumf (addf (matmul d none (truncf .bf16 x hb) (truncf .bf16 W hb)
          (constant (F := Ideal) ⟨2, ![a, n]⟩ .f32 0x00000000#32))
        (broadcastTo ⟨2, ![a, n]⟩ (shapeCast ⟨2, ![1, n]⟩ b hc3) hb3))
      (broadcast ⟨2, ![a, n]⟩ (Scalar.ofBits (F := Ideal) .f32 0x00000000#32))
      = act x W b := by
  funext i
  obtain ⟨r, q, rfl⟩ : ∃ (r : Fin a) (q : Fin n), i = ix2 r q := ⟨i 0, i 1, eq_ix2 i⟩
  refine congrArg (fun z : EReal => max z (Ideal.ofBits .f32 0x00000000#32)) ?_
  rw [Cert.Dense.matmul_eq_prod d hlc hrc hln hrn hlb hrb x W hb]
  exact Cert.Dense.tile_biased _ b hc3 hb3 r q

include hlc hrc hln hrn hlb hrb in
/-- On the whole array: the host's dot_general plus the bias row laid over the rows, against a scalar zero laid
    over everything, is the rectified layer. -/
theorem host_act (X : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1])
    (h0 : (⟨0, ![]⟩ : Shape).BroadcastsInDim ⟨2, ![a, n]⟩ ![]) :
    maximumf (addf (Host.dotGeneral (F := Ideal) d none X W) (broadcastInDim ⟨2, ![a, n]⟩ ![0, 1] hB B))
      (broadcastInDim ⟨2, ![a, n]⟩ ![] h0 (constant (F := Ideal) ⟨0, ![]⟩ .f32 0x00000000#32))
      = act X W B := by
  funext i
  obtain ⟨r, q, rfl⟩ : ∃ (r : Fin a) (q : Fin n), i = ix2 r q := ⟨i 0, i 1, eq_ix2 i⟩
  refine congrArg (fun z : EReal => max z (Ideal.ofBits .f32 0x00000000#32)) ?_
  rw [Cert.Dense.dotGeneral_eq_prod d hlc hrc hln hrn hlb hrb X W]
  exact Cert.Dense.host_biased _ B hB r q

end Spellings

end Cert.Branch

end
-- ==== Proof.RegionValue0.lean ====
/-
  Region 0 of the program, read as one function of whole arrays, on the extended reals.

  The region walks a grid of ten points; at point t it takes rows 10000 t … 10000 t + 9999 of its left operand and
  the whole weight matrix, and stores the product of the two into the same rows of its output.  An entry of a product reads only its
  own row of the left operand, so the block a point writes back is that block of rows of the product of the
  WHOLE arrays; the ten blocks fill the 100000 rows, so when the region ends its output array is that one function of
  the arrays as the region found them.
-/
import proofs.«109125_j11793980195110_1_alg».proof.Proof.KI.Reg0
import proofs.«109125_j11793980195110_1_alg».proof.Proof.LibDenseLayer
import proofs.«109125_j11793980195110_1_alg».proof.Proof.LibDenseBranch

set_option maxRecDepth 16384

noncomputable section

namespace Cert.KernelIdeal.Rv

open Cert.KernelIdeal Cert.KernelIdeal.Gen Cert.KernelIdeal.Fr
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a whole-buffer rectangle. -/
theorem hz0 : (![0, 0] : Fin 2 → Nat) = fun _ => 0 := funext fun a => by fin_cases a <;> rfl

/-- On a block, what the body stores is the product of the block of rows with the weights: rounding an operand to
    bfloat16 does nothing to an extended real, and the accumulator starts from zero. -/
theorem pay0_eq (x0 : Vec Ideal S10000x128 .f32) (x1 : Vec Ideal S128x64 .f32) :
    k0_pay1 x0 x1 = Cert.Dense.prod (a := 10000) (k := 128) (n := 64) x0 x1 := by
  unfold k0_pay1
  exact Cert.Dense.matmul_eq_prod dot_S10000x128_S128x64_S10000x64_1_0_0_1_n_n rfl rfl rfl rfl rfl rfl x0 x1 bitsLt_bf16_f32

/-- The index maps over the grid: at point t the left operand's and the output's block is block t of rows (and the
    only block of columns); the weights' block is the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the whole left operand with the weights: an entry of a
    product reads only its own row of the left operand, and row p of block t is row 10000 t + p of the array. -/
theorem flushed0_eq (c : Dev nD) (t : Fin cfg0.N) :
    (dat0 (F := Ideal) V c).flushed 2 t
      = ((cfg0.win 2).blk t).view.read (Elt Ideal)
          (Cert.Dense.prod (a := 100000) (k := 128) (n := 64) (V c main_arg1 : S100000x128.Idx → EReal) (V c main_arg2 : S128x64.Idx → EReal)) := by
  show (cfg0.win 2).cut (grid0.coords t) ((dat0 (F := Ideal) V c).after 2 t) = _
  rw [after0_2]
  unfold out0_2
  rw [View.canon_unit_zero hz0]
  simp only [View.ld_unit_zero (S := S10000x128) hz0, View.ld_unit_zero (S := S128x64) hz0]
  rw [pay0_eq]
  obtain ⟨e0, e1, e2, e3, e4, e5⟩ := idx_facts0 t
  funext j
  show Cert.Dense.prod (a := 10000) (k := 128) (n := 64) (iblk0 V c 0 t) (iblk0 V c 1 t) j
    = Cert.Dense.prod (a := 100000) (k := 128) (n := 64) (V c main_arg1 : S100000x128.Idx → EReal) (V c main_arg2 : S128x64.Idx → EReal) (((cfg0.win 2).blk t).view.emb j)
  refine Cert.Branch.prod_at (N := 100000) (a := 10000) (k := 128) (n := 64) (V c main_arg1 : S100000x128.Idx → EReal) (V c main_arg2 : S128x64.Idx → EReal)
    (iblk0 V c 0 t) (iblk0 V c 1 t) j (((cfg0.win 2).blk t).view.emb j) (fun q => ?_) (fun y => ?_) ?_
  · show V c main_arg1 (((cfg0.win 0).blk t).view.emb (ix2 (j 0) q)) = V c main_arg1 (ix2 ((((cfg0.win 2).blk t).view.emb j) 0) q)
    refine congrArg (V c main_arg1) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * q.val = q.val; omega
  · show V c main_arg2 (((cfg0.win 1).blk t).view.emb y) = V c main_arg2 y
    refine congrArg (V c main_arg2) (funext fun a => Fin.ext ?_)
    match a with
    | ⟨0, _⟩ => show win0_1.index t (0 : Fin 2) * 128 + 1 * (y 0).val = (y 0).val; omega
    | ⟨1, _⟩ => show win0_1.index t (1 : Fin 2) * 64 + 1 * (y 1).val = (y 1).val; omega
  · apply Fin.ext
    show (j 1).val = win0_2.index t (1 : Fin 2) * 64 + 1 * (j 1).val
    omega

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The ten blocks of 10000 rows fill the 100000 rows: row r is in the block of point r / 10000. -/
theorem cover0 (i : S100000x64.Idx) :
    ∃ t : Fin cfg0.N, (cfg0.win 2).flush t = true ∧ i ∈ ((cfg0.win 2).blk t).view.set := by
  have hN : grid0.N = 10 := N_0
  have hi0 : (i 0).val < 100000 := (i 0).isLt
  have hi1 : (i 1).val < 64 := (i 1).isLt
  obtain ⟨t, ht⟩ : ∃ t : Fin cfg0.N, t.val = (i 0).val / 10000 := ⟨⟨(i 0).val / 10000, by show _ < grid0.N; omega⟩, rfl⟩
  refine ⟨t, flush0_2 t, ?_⟩
  rw [mem_blk0]
  obtain ⟨e0, e1, e2, e3, e4, e5⟩ := idx_facts0 t
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- Region 0 leaves in its output array the product of its left operand with its weights, as the region found them. -/
theorem final0 (c : Dev nD) :
    (dat0 (F := Ideal) V c).arrAt 2 cfg0.N
      = Cert.Dense.prod (a := 100000) (k := 128) (n := 64) (V c main_arg1 : S100000x128.Idx → EReal) (V c main_arg2 : S128x64.Idx → EReal) :=
  (dat0 (F := Ideal) V c).arrAt_eq_of_cover 2 _ (fun t _ => flushed0_eq V c t) cover0

end Cert.KernelIdeal.Rv

end
-- ==== Proof.RegionValue1.lean ====
/-
  Region 1 of the program, read as one function of whole arrays, on the extended reals.

  The region walks a grid of ten points; at point t it takes rows 10000 t … 10000 t + 9999 of its left operand and
  the whole weight matrix, and stores the product of the two into the same rows of its output.  An entry of a product reads only its
  own row of the left operand, so the block a point writes back is that block of rows of the product of the
  WHOLE arrays; the ten blocks fill the 100000 rows, so when the region ends its output array is that one function of
  the arrays as the region found them.
-/
import proofs.«109125_j11793980195110_1_alg».proof.Proof.KI.Reg1
import proofs.«109125_j11793980195110_1_alg».proof.Proof.LibDenseLayer
import proofs.«109125_j11793980195110_1_alg».proof.Proof.LibDenseBranch

set_option maxRecDepth 16384

noncomputable section

namespace Cert.KernelIdeal.Rv

open Cert.KernelIdeal Cert.KernelIdeal.Gen Cert.KernelIdeal.Fr
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a whole-buffer rectangle. -/
theorem hz1 : (![0, 0] : Fin 2 → Nat) = fun _ => 0 := funext fun a => by fin_cases a <;> rfl

/-- On a block, what the body stores is the product of the block of rows with the weights: rounding an operand to
    bfloat16 does nothing to an extended real, and the accumulator starts from zero. -/
theorem pay1_eq (x0 : Vec Ideal S10000x64 .f32) (x1 : Vec Ideal S64x32 .f32) :
    k1_pay1 x0 x1 = Cert.Dense.prod (a := 10000) (k := 64) (n := 32) x0 x1 := by
  unfold k1_pay1
  rw [shapeCast_self]
  exact Cert.Dense.matmul_eq_prod dot_S10000x64_S64x32_S10000x32_1_0_0_1_n_n rfl rfl rfl rfl rfl rfl x0 x1 bitsLt_bf16_f32

/-- The index maps over the grid: at point t the left operand's and the output's block is block t of rows (and the
    only block of columns); the weights' block is the whole matrix. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product of the whole left operand with the weights: an entry of a
    product reads only its own row of the left operand, and row p of block t is row 10000 t + p of the array. -/
theorem flushed1_eq (c : Dev nD) (t : Fin cfg1.N) :
    (dat1 (F := Ideal) V c).flushed 2 t
      = ((cfg1.win 2).blk t).view.read (Elt Ideal)
          (Cert.Dense.prod (a := 100000) (k := 64) (n := 32) (V c main_v47 : S100000x64.Idx → EReal) (V c main_arg4 : S64x32.Idx → EReal)) := by
  show (cfg1.win 2).cut (grid1.coords t) ((dat1 (F := Ideal) V c).after 2 t) = _
  rw [after1_2]
  unfold out1_2
  rw [View.canon_unit_zero hz1]
  simp only [View.ld_unit_zero (S := S10000x64) hz1, View.ld_unit_zero (S := S64x32) hz1]
  rw [pay1_eq]
  obtain ⟨e0, e1, e2, e3, e4, e5⟩ := idx_facts1 t
  funext j
  show Cert.Dense.prod (a := 10000) (k := 64) (n := 32) (iblk1 V c 0 t) (iblk1 V c 1 t) j
    = Cert.Dense.prod (a := 100000) (k := 64) (n := 32) (V c main_v47 : S100000x64.Idx → EReal) (V c main_arg4 : S64x32.Idx → EReal) (((cfg1.win 2).blk t).view.emb j)
  refine Cert.Branch.prod_at (N := 100000) (a := 10000) (k := 64) (n := 32) (V c main_v47 : S100000x64.Idx → EReal) (V c main_arg4 : S64x32.Idx → EReal)
    (iblk1 V c 0 t) (iblk1 V c 1 t) j (((cfg1.win 2).blk t).view.emb j) (fun q => ?_) (fun y => ?_) ?_
  · show V c main_v47 (((cfg1.win 0).blk t).view.emb (ix2 (j 0) q)) = V c main_v47 (ix2 ((((cfg1.win 2).blk t).view.emb j) 0) q)
    refine congrArg (V c main_v47) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * q.val = q.val; omega
  · show V c main_arg4 (((cfg1.win 1).blk t).view.emb y) = V c main_arg4 y
    refine congrArg (V c main_arg4) (funext fun a => Fin.ext ?_)
    match a with
    | ⟨0, _⟩ => show win1_1.index t (0 : Fin 2) * 64 + 1 * (y 0).val = (y 0).val; omega
    | ⟨1, _⟩ => show win1_1.index t (1 : Fin 2) * 32 + 1 * (y 1).val = (y 1).val; omega
  · apply Fin.ext
    show (j 1).val = win1_2.index t (1 : Fin 2) * 32 + 1 * (j 1).val
    omega

/-- An index of the output array is in point t's block iff each coordinate is in the block's range on its axis. -/
theorem mem_blk1 (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v48).slice (win1_2.rect t)).set ↔ _
  rw [View.set_slice_whole, Rect.mem_set_unit]
  exact Iff.rfl

/-- The ten blocks of 10000 rows fill the 100000 rows: row r is in the block of point r / 10000. -/
theorem cover1 (i : S100000x32.Idx) :
    ∃ t : Fin cfg1.N, (cfg1.win 2).flush t = true ∧ i ∈ ((cfg1.win 2).blk t).view.set := by
  have hN : grid1.N = 10 := N_1
  have hi0 : (i 0).val < 100000 := (i 0).isLt
  have hi1 : (i 1).val < 32 := (i 1).isLt
  obtain ⟨t, ht⟩ : ∃ t : Fin cfg1.N, t.val = (i 0).val / 10000 := ⟨⟨(i 0).val / 10000, by show _ < grid1.N; omega⟩, rfl⟩
  refine ⟨t, flush1_2 t, ?_⟩
  rw [mem_blk1]
  obtain ⟨e0, e1, e2, e3, e4, e5⟩ := idx_facts1 t
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 32 ≤ (i 1).val ∧ (i 1).val < win1_2.index t (1 : Fin 2) * 32 + 32; omega

/-- Region 1 leaves in its output array the product of its left operand with its weights, as the region found them. -/
theorem final1 (c : Dev nD) :
    (dat1 (F := Ideal) V c).arrAt 2 cfg1.N
      = Cert.Dense.prod (a := 100000) (k := 64) (n := 32) (V c main_v47 : S100000x64.Idx → EReal) (V c main_arg4 : S64x32.Idx → EReal) :=
  (dat1 (F := Ideal) V c).arrAt_eq_of_cover 2 _ (fun t _ => flushed1_eq V c t) cover1

end Cert.KernelIdeal.Rv

end
-- ==== Proof.RegionValue2.lean ====
/-
  Region 2 of the program, read as one function of whole arrays, on the extended reals.

  The region walks a grid of ten points; at point t it takes rows 10000 t … 10000 t + 9999 of its left operand and
  the whole weight matrix, and stores the product of the two into the same rows of its output.  An entry of a product reads only its
  own row of the left operand, so the block a point writes back is that block of rows of the product of the
  WHOLE arrays; the ten blocks fill the 100000 rows, so when the region ends its output array is that one function of
  the arrays as the region found them.
-/
import proofs.«109125_j11793980195110_1_alg».proof.Proof.KI.Reg2
import proofs.«109125_j11793980195110_1_alg».proof.Proof.LibDenseLayer
import proofs.«109125_j11793980195110_1_alg».proof.Proof.LibDenseBranch

set_option maxRecDepth 16384

noncomputable section

namespace Cert.KernelIdeal.Rv

open Cert.KernelIdeal Cert.KernelIdeal.Gen Cert.KernelIdeal.Fr
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a whole-buffer rectangle. -/
theorem hz2 : (![0, 0] : Fin 2 → Nat) = fun _ => 0 := funext fun a => by fin_cases a <;> rfl

/-- On a block, what the body stores is the product of the block of rows with the weights: rounding an operand to
    bfloat16 does nothing to an extended real, and the accumulator starts from zero. -/
theorem pay2_eq (x0 : Vec Ideal S10000x32 .f32) (x1 : Vec Ideal S32x16 .f32) :
    k2_pay1 x0 x1 = Cert.Dense.prod (a := 10000) (k := 32) (n := 16) x0 x1 := by
  unfold k2_pay1
  rw [shapeCast_self]
  exact Cert.Dense.matmul_eq_prod dot_S10000x32_S32x16_S10000x16_1_0_0_1_n_n rfl rfl rfl rfl rfl rfl x0 x1 bitsLt_bf16_f32

/-- The index maps over the grid: at point t the left operand's and the output's block is block t of rows (and the
    only block of columns); the weights' block is the whole matrix. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the whole left operand with the weights: an entry of a
    product reads only its own row of the left operand, and row p of block t is row 10000 t + p of the array. -/
theorem flushed2_eq (c : Dev nD) (t : Fin cfg2.N) :
    (dat2 (F := Ideal) V c).flushed 2 t
      = ((cfg2.win 2).blk t).view.read (Elt Ideal)
          (Cert.Dense.prod (a := 100000) (k := 32) (n := 16) (V c main_v65 : S100000x32.Idx → EReal) (V c main_arg6 : S32x16.Idx → EReal)) := by
  show (cfg2.win 2).cut (grid2.coords t) ((dat2 (F := Ideal) V c).after 2 t) = _
  rw [after2_2]
  unfold out2_2
  rw [View.canon_unit_zero hz2]
  simp only [View.ld_unit_zero (S := S10000x32) hz2, View.ld_unit_zero (S := S32x16) hz2]
  rw [pay2_eq]
  obtain ⟨e0, e1, e2, e3, e4, e5⟩ := idx_facts2 t
  funext j
  show Cert.Dense.prod (a := 10000) (k := 32) (n := 16) (iblk2 V c 0 t) (iblk2 V c 1 t) j
    = Cert.Dense.prod (a := 100000) (k := 32) (n := 16) (V c main_v65 : S100000x32.Idx → EReal) (V c main_arg6 : S32x16.Idx → EReal) (((cfg2.win 2).blk t).view.emb j)
  refine Cert.Branch.prod_at (N := 100000) (a := 10000) (k := 32) (n := 16) (V c main_v65 : S100000x32.Idx → EReal) (V c main_arg6 : S32x16.Idx → EReal)
    (iblk2 V c 0 t) (iblk2 V c 1 t) j (((cfg2.win 2).blk t).view.emb j) (fun q => ?_) (fun y => ?_) ?_
  · show V c main_v65 (((cfg2.win 0).blk t).view.emb (ix2 (j 0) q)) = V c main_v65 (ix2 ((((cfg2.win 2).blk t).view.emb j) 0) q)
    refine congrArg (V c main_v65) (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 32 + 1 * q.val = q.val; omega
  · show V c main_arg6 (((cfg2.win 1).blk t).view.emb y) = V c main_arg6 y
    refine congrArg (V c main_arg6) (funext fun a => Fin.ext ?_)
    match a with
    | ⟨0, _⟩ => show win2_1.index t (0 : Fin 2) * 32 + 1 * (y 0).val = (y 0).val; omega
    | ⟨1, _⟩ => show win2_1.index t (1 : Fin 2) * 16 + 1 * (y 1).val = (y 1).val; omega
  · apply Fin.ext
    show (j 1).val = win2_2.index t (1 : Fin 2) * 16 + 1 * (j 1).val
    omega

/-- An index of the output array is in point t's block iff each coordinate is in the block's range on its axis. -/
theorem mem_blk2 (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v66).slice (win2_2.rect t)).set ↔ _
  rw [View.set_slice_whole, Rect.mem_set_unit]
  exact Iff.rfl

/-- The ten blocks of 10000 rows fill the 100000 rows: row r is in the block of point r / 10000. -/
theorem cover2 (i : S100000x16.Idx) :
    ∃ t : Fin cfg2.N, (cfg2.win 2).flush t = true ∧ i ∈ ((cfg2.win 2).blk t).view.set := by
  have hN : grid2.N = 10 := N_2
  have hi0 : (i 0).val < 100000 := (i 0).isLt
  have hi1 : (i 1).val < 16 := (i 1).isLt
  obtain ⟨t, ht⟩ : ∃ t : Fin cfg2.N, t.val = (i 0).val / 10000 := ⟨⟨(i 0).val / 10000, by show _ < grid2.N; omega⟩, rfl⟩
  refine ⟨t, flush2_2 t, ?_⟩
  rw [mem_blk2]
  obtain ⟨e0, e1, e2, e3, e4, e5⟩ := idx_facts2 t
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 16 ≤ (i 1).val ∧ (i 1).val < win2_2.index t (1 : Fin 2) * 16 + 16; omega

/-- Region 2 leaves in its output array the product of its left operand with its weights, as the region found them. -/
theorem final2 (c : Dev nD) :
    (dat2 (F := Ideal) V c).arrAt 2 cfg2.N
      = Cert.Dense.prod (a := 100000) (k := 32) (n := 16) (V c main_v65 : S100000x32.Idx → EReal) (V c main_arg6 : S32x16.Idx → EReal) :=
  (dat2 (F := Ideal) V c).arrAt_eq_of_cover 2 _ (fun t _ => flushed2_eq V c t) cover2

end Cert.KernelIdeal.Rv

end
-- ==== Proof.RegionValue3.lean ====
/-
  Region 3 of the program, read as one function of whole arrays, on the extended reals.

  The region walks a grid of ten points; at point t it takes rows 10000 t … 10000 t + 9999 of its left operand and
  the whole weight matrix and the whole bias row, and stores the product of the two plus the bias row repeated down the rows, clamped below at zero, into the same rows of its output.  An entry of a product reads only its
  own row of the left operand, so the block a point writes back is that block of rows of the rectified layer of the
  WHOLE arrays; the ten blocks fill the 100000 rows, so when the region ends its output array is that one function of
  the arrays as the region found them.
-/
import proofs.«109125_j11793980195110_1_alg».proof.Proof.KI.Reg3
import proofs.«109125_j11793980195110_1_alg».proof.Proof.LibDenseLayer
import proofs.«109125_j11793980195110_1_alg».proof.Proof.LibDenseBranch

set_option maxRecDepth 16384

noncomputable section

namespace Cert.KernelIdeal.Rv

open Cert.KernelIdeal Cert.KernelIdeal.Gen Cert.KernelIdeal.Fr
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The zero offsets of a whole-buffer rectangle. -/
theorem hz3 : (![0, 0] : Fin 2 → Nat) = fun _ => 0 := funext fun a => by fin_cases a <;> rfl

/-- On a block, what the body stores is the rectified layer of the block of rows: the product with the weights (rounding
    an operand to bfloat16 does nothing to an extended real; the accumulator starts from zero), plus the bias row
    repeated down the rows, and the larger of that and zero. -/
theorem pay3_eq (x0 : Vec Ideal S10000x112 .f32) (x1 : Vec Ideal S112x16 .f32) (x2 : Vec Ideal S1x16 .f32) :
    k3_pay1 x0 x1 x2 = Cert.Branch.act (a := 10000) (k := 112) (n := 16) x0 x1 x2 := by
  unfold k3_pay1
  rw [shapeCast_self x0]
  exact Cert.Branch.tile_act dot_S10000x112_S112x16_S10000x16_1_0_0_1_n_n rfl rfl rfl rfl rfl rfl x0 x1 x2 bitsLt_bf16_f32
    shapeCasts_S1x16_S1x16 broadcasts_S1x16_S10000x16

/-- The index maps over the grid: at point t the left operand's and the output's block is block t of rows (and the
    only block of columns); the weights' block is the whole matrix and the bias's the whole row. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the rectified layer of the whole left operand: an entry of the layer reads
    only its own row of the left operand, and row p of block t is row 10000 t + p of the array. -/
theorem flushed3_eq (c : Dev nD) (t : Fin cfg3.N) :
    (dat3 (F := Ideal) V c).flushed 3 t
      = ((cfg3.win 3).blk t).view.read (Elt Ideal)
          (Cert.Branch.act (a := 100000) (k := 112) (n := 16) (V c main_v84 : S100000x112.Idx → EReal) (V c main_arg8 : S112x16.Idx → EReal)
            (V c main_v85 : S1x16.Idx → EReal)) := by
  show (cfg3.win 3).cut (grid3.coords t) ((dat3 (F := Ideal) V c).after 3 t) = _
  rw [after3_3]
  unfold out3_3
  rw [View.canon_unit_zero hz3]
  simp only [View.ld_unit_zero (S := S10000x112) hz3, View.ld_unit_zero (S := S112x16) hz3, View.ld_unit_zero (S := S1x16) hz3]
  rw [pay3_eq]
  obtain ⟨e0, e1, e2, e3, e4, e5, e6, e7⟩ := idx_facts3 t
  funext j
  show Cert.Branch.act (a := 10000) (k := 112) (n := 16) (iblk3 V c 0 t) (iblk3 V c 1 t) (iblk3 V c 2 t) j
    = Cert.Branch.act (a := 100000) (k := 112) (n := 16) (V c main_v84 : S100000x112.Idx → EReal) (V c main_arg8 : S112x16.Idx → EReal)
        (V c main_v85 : S1x16.Idx → EReal) (((cfg3.win 3).blk t).view.emb j)
  refine Cert.Branch.act_at (N := 100000) (a := 10000) (k := 112) (n := 16) (V c main_v84 : S100000x112.Idx → EReal) (V c main_arg8 : S112x16.Idx → EReal)
    (V c main_v85 : S1x16.Idx → EReal) (iblk3 V c 0 t) (iblk3 V c 1 t) (iblk3 V c 2 t) j (((cfg3.win 3).blk t).view.emb j)
    (fun q => ?_) (fun y => ?_) (fun y => ?_) ?_
  · show V c main_v84 (((cfg3.win 0).blk t).view.emb (ix2 (j 0) q)) = V c main_v84 (ix2 ((((cfg3.win 3).blk t).view.emb j) 0) q)
    refine congrArg (V c main_v84) (funext fun a => Fin.ext ?_)
    match a with
    | ⟨0, _⟩ => show win3_0.index t (0 : Fin 2) * 10000 + 1 * (j 0).val = win3_3.index t (0 : Fin 2) * 10000 + 1 * (j 0).val; omega
    | ⟨1, _⟩ => show win3_0.index t (1 : Fin 2) * 112 + 1 * q.val = q.val; omega
  · show V c main_arg8 (((cfg3.win 1).blk t).view.emb y) = V c main_arg8 y
    refine congrArg (V c main_arg8) (funext fun a => Fin.ext ?_)
    match a with
    | ⟨0, _⟩ => show win3_1.index t (0 : Fin 2) * 112 + 1 * (y 0).val = (y 0).val; omega
    | ⟨1, _⟩ => show win3_1.index t (1 : Fin 2) * 16 + 1 * (y 1).val = (y 1).val; omega
  · show V c main_v85 (((cfg3.win 2).blk t).view.emb y) = V c main_v85 y
    refine congrArg (V c main_v85) (funext fun a => Fin.ext ?_)
    match a with
    | ⟨0, _⟩ => show win3_2.index t (0 : Fin 2) * 1 + 1 * (y 0).val = (y 0).val; omega
    | ⟨1, _⟩ => show win3_2.index t (1 : Fin 2) * 16 + 1 * (y 1).val = (y 1).val; omega
  · apply Fin.ext
    show (j 1).val = win3_3.index t (1 : Fin 2) * 16 + 1 * (j 1).val
    omega

/-- An index of the output array is in point t's block iff each coordinate is in the block's range on its axis. -/
theorem mem_blk3 (t : Fin cfg3.N) (i : S100000x16.Idx) :
    i ∈ ((cfg3.win 3).blk t).view.set ↔ ∀ a : Fin 2, win3_3.index t a * S10000x16.size a ≤ (i a).val ∧ (i a).val < win3_3.index t a * S10000x16.size a + S10000x16.size a := by
  show i ∈ ((View.whole main_v86).slice (win3_3.rect t)).set ↔ _
  rw [View.set_slice_whole, Rect.mem_set_unit]
  exact Iff.rfl

/-- The ten blocks of 10000 rows fill the 100000 rows: row r is in the block of point r / 10000. -/
theorem cover3 (i : S100000x16.Idx) :
    ∃ t : Fin cfg3.N, (cfg3.win 3).flush t = true ∧ i ∈ ((cfg3.win 3).blk t).view.set := by
  have hN : grid3.N = 10 := N_3
  have hi0 : (i 0).val < 100000 := (i 0).isLt
  have hi1 : (i 1).val < 16 := (i 1).isLt
  obtain ⟨t, ht⟩ : ∃ t : Fin cfg3.N, t.val = (i 0).val / 10000 := ⟨⟨(i 0).val / 10000, by show _ < grid3.N; omega⟩, rfl⟩
  refine ⟨t, flush3_3 t, ?_⟩
  rw [mem_blk3]
  obtain ⟨e0, e1, e2, e3, e4, e5, e6, e7⟩ := idx_facts3 t
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 16 ≤ (i 1).val ∧ (i 1).val < win3_3.index t (1 : Fin 2) * 16 + 16; omega

/-- Region 3 leaves in its output array the rectified layer of its left operand, its weights and its bias row, as the
    region found them. -/
theorem final3 (c : Dev nD) :
    (dat3 (F := Ideal) V c).arrAt 3 cfg3.N
      = Cert.Branch.act (a := 100000) (k := 112) (n := 16) (V c main_v84 : S100000x112.Idx → EReal) (V c main_arg8 : S112x16.Idx → EReal)
          (V c main_v85 : S1x16.Idx → EReal) :=
  (dat3 (F := Ideal) V c).arrAt_eq_of_cover 3 _ (fun t _ => flushed3_eq V c t) cover3

end Cert.KernelIdeal.Rv

end
-- ==== Proof.KI.KValue.lean ====
/-
  The kernel program's result as the network (Cert.Gcn.net) over the row-by-row matrix products.

  Walking the run's fourteen boundaries (W0 … W14): before the first region the host operations leave the edge lists
  (with a loop at every node) and the edge weights; each of the first three regions leaves the product of the current
  features with a weight matrix, which the host operations after it turn into the next features by one convolution;
  the last host operations lay the three feature arrays side by side, and the last region leaves the rectified dense
  layer of that array.  A buffer no later step writes keeps its contents, so the edge lists, the weights, the earlier
  features and the argument arrays are still there when a later step reads them.
-/
import proofs.«109125_j11793980195110_1_alg».proof.Proof.KI.Run
import proofs.«109125_j11793980195110_1_alg».proof.Proof.HostValues
import proofs.«109125_j11793980195110_1_alg».proof.Proof.RegionValue0
import proofs.«109125_j11793980195110_1_alg».proof.Proof.RegionValue1
import proofs.«109125_j11793980195110_1_alg».proof.Proof.RegionValue2
import proofs.«109125_j11793980195110_1_alg».proof.Proof.RegionValue3

noncomputable section

namespace Cert.KernelIdeal.Kv

open Idealize.ShloMosaic Idealize.ShloMosaic.TcCoe Idealize.ShloMosaic.StableHlo
open Cert.KernelIdeal Cert.KernelIdeal.Gen Cert.KernelIdeal.Fr Cert.KernelIdeal.Hv Cert.KernelIdeal.Rv

variable (m : (ℓ : Loc nD τ sig) → Buf (Elt Ideal) ℓ) (c : Dev nD)

/-! ## The values -/

/-- The edge array and the nine float arguments, as launched. -/
abbrev e := m ((c : Thread nD τ).loc main_arg0)

/-- The features after the first convolution. -/
def f1 : (⟨S100000x64, .f32⟩ : BufTy).Contents (Elt Ideal) :=
  Cert.Gcn.conv64 (F := Ideal)
    (Cert.Dense.prod (a := 100000) (k := 128) (n := 64) (m ((c : Thread nD τ).loc main_arg1)) (m ((c : Thread nD τ).loc main_arg2)))
    (Cert.Gcn.src (e m c)) (Cert.Gcn.dst (e m c)) (Cert.Gcn.weight (e m c)) (m ((c : Thread nD τ).loc main_arg3))

/-- The features after the second convolution. -/
def f2 : (⟨S100000x32, .f32⟩ : BufTy).Contents (Elt Ideal) :=
  Cert.Gcn.conv32 (F := Ideal)
    (Cert.Dense.prod (a := 100000) (k := 64) (n := 32) (f1 m c) (m ((c : Thread nD τ).loc main_arg4)))
    (Cert.Gcn.src (e m c)) (Cert.Gcn.dst (e m c)) (Cert.Gcn.weight (e m c)) (m ((c : Thread nD τ).loc main_arg5))

/-- The features after the third convolution. -/
def f3 : (⟨S100000x16, .f32⟩ : BufTy).Contents (Elt Ideal) :=
  Cert.Gcn.conv16 (F := Ideal)
    (Cert.Dense.prod (a := 100000) (k := 32) (n := 16) (f2 m c) (m ((c : Thread nD τ).loc main_arg6)))
    (Cert.Gcn.src (e m c)) (Cert.Gcn.dst (e m c)) (Cert.Gcn.weight (e m c)) (m ((c : Thread nD τ).loc main_arg7))

theorem w3_src : W3 m c main_v5 = Cert.Gcn.src (e m c) := pre_src (W0 m c)
theorem w3_dst : W3 m c main_v6 = Cert.Gcn.dst (e m c) := pre_dst (W0 m c)
theorem w3_weight : W3 m c main_v29 = Cert.Gcn.weight (e m c) := pre_weight (W0 m c)

/-- Region 1 is entered with the first features in main_v47. -/
theorem w6_f1 : W6 m c main_v47 = f1 m c := by
  refine (conv1 (W4 m c)).trans ?_
  rw [show W4 m c main_v30 = Cert.Dense.prod (a := 100000) (k := 128) (n := 64) (W3 m c main_arg1) (W3 m c main_arg2) from
        (W4_arr m c 2).trans (final0 (Vr3 m) c),
    keep_r0 m c main_v5 (by decide), keep_r0 m c main_v6 (by decide), keep_r0 m c main_v29 (by decide),
    keep_r0 m c main_arg3 (by decide), w3_src, w3_dst, w3_weight,
    keep_0_3 m c main_arg1 (by decide) (by decide) (by decide), keep_0_3 m c main_arg2 (by decide) (by decide) (by decide),
    keep_0_3 m c main_arg3 (by decide) (by decide) (by decide)]
  rfl

/-- Region 2 is entered with the second features in main_v65. -/
theorem w9_f2 : W9 m c main_v65 = f2 m c := by
  refine (conv2 (W7 m c)).trans ?_
  rw [show W7 m c main_v48 = Cert.Dense.prod (a := 100000) (k := 64) (n := 32) (W6 m c main_v47) (W6 m c main_arg4) from
        (W7_arr m c 2).trans (final1 (Vr6 m) c),
    keep_r1 m c main_v5 (by decide), keep_r1 m c main_v6 (by decide), keep_r1 m c main_v29 (by decide),
    keep_r1 m c main_arg5 (by decide), w6_f1,
    keep_3_6 m c main_v5 (by decide) (by decide) (by decide), keep_3_6 m c main_v6 (by decide) (by decide) (by decide),
    keep_3_6 m c main_v29 (by decide) (by decide) (by decide), keep_3_6 m c main_arg4 (by decide) (by decide) (by decide),
    keep_3_6 m c main_arg5 (by decide) (by decide) (by decide), w3_src, w3_dst, w3_weight,
    keep_0_3 m c main_arg4 (by decide) (by decide) (by decide), keep_0_3 m c main_arg5 (by decide) (by decide) (by decide)]
  rfl

/-- The last host operations start with the third features' product in main_v66 and leave the third features. -/
theorem w12_f3 : W12 m c main_v83 = f3 m c := by
  refine (conv3 (W10 m c)).trans ?_
  rw [show W10 m c main_v66 = Cert.Dense.prod (a := 100000) (k := 32) (n := 16) (W9 m c main_v65) (W9 m c main_arg6) from
        (W10_arr m c 2).trans (final2 (Vr9 m) c),
    keep_r2 m c main_v5 (by decide), keep_r2 m c main_v6 (by decide), keep_r2 m c main_v29 (by decide),
    keep_r2 m c main_arg7 (by decide), w9_f2,
    keep_6_9 m c main_v5 (by decide) (by decide) (by decide), keep_6_9 m c main_v6 (by decide) (by decide) (by decide),
    keep_6_9 m c main_v29 (by decide) (by decide) (by decide), keep_6_9 m c main_arg6 (by decide) (by decide) (by decide),
    keep_6_9 m c main_arg7 (by decide) (by decide) (by decide),
    keep_3_6 m c main_v5 (by decide) (by decide) (by decide), keep_3_6 m c main_v6 (by decide) (by decide) (by decide),
    keep_3_6 m c main_v29 (by decide) (by decide) (by decide), keep_3_6 m c main_arg6 (by decide) (by decide) (by decide),
    keep_3_6 m c main_arg7 (by decide) (by decide) (by decide), w3_src, w3_dst, w3_weight,
    keep_0_3 m c main_arg6 (by decide) (by decide) (by decide), keep_0_3 m c main_arg7 (by decide) (by decide) (by decide)]
  rfl

/-- THE KERNEL'S RESULT: the rectified dense layer of the three feature arrays side by side. -/
theorem w14_result : W14 m c main_v86
    = Cert.Branch.act (a := 100000) (k := 112) (n := 16) (Cert.Gcn.join (F := Ideal) (f1 m c) (f2 m c) (f3 m c))
        (m ((c : Thread nD τ).loc main_arg8))
        (shapeCast S1x16 (m ((c : Thread nD τ).loc main_arg9)) Cert.KernelIdeal.Gen.shapeCasts_S16_S1x16) := by
  refine ((W14_arr m c 3).trans (final3 (Vr13 m) c)).trans ?_
  rw [show Vr13 m c main_v84 = Cert.Gcn.join (F := Ideal) (W12 m c main_v47) (W12 m c main_v65) (W12 m c main_v83) from tail_join (W12 m c),
    show Vr13 m c main_v85 = shapeCast S1x16 (W12 m c main_arg9) Cert.KernelIdeal.Gen.shapeCasts_S16_S1x16 from tail_bias (W12 m c),
    show Vr13 m c main_arg8 = W0 m c main_arg8 from w13_const m c main_arg8,
    w12_f3,
    keep_9_12 m c main_v65 (by decide) (by decide) (by decide), w9_f2,
    keep_9_12 m c main_v47 (by decide) (by decide) (by decide), keep_6_9 m c main_v47 (by decide) (by decide) (by decide), w6_f1,
    keep_9_12 m c main_arg9 (by decide) (by decide) (by decide), keep_6_9 m c main_arg9 (by decide) (by decide) (by decide),
    keep_3_6 m c main_arg9 (by decide) (by decide) (by decide), keep_0_3 m c main_arg9 (by decide) (by decide) (by decide)]

end Cert.KernelIdeal.Kv

end
-- ==== Proof.Bridge.lean ====
/-
  The two programs compute one function.

  The reference forms each matrix product with the host's dot_general on the whole arrays; the kernel forms it block
  of rows by block of rows on the matrix unit.  On the extended reals both are the plain product: entry (r, q) is the
  sum over c of X(r, c) * W(c, q).  The last layer adds the bias row to every row and clamps at zero, in both
  programs; the reference lays the bias vector out as a row by a broadcast, the kernel by a reshape: one row.
  Everything between the products is the same host operations applied to the same arrays (Cert.Gcn.net).
-/
import proofs.«109125_j11793980195110_1_alg».proof.Proof.RefValue
import proofs.«109125_j11793980195110_1_alg».proof.Proof.KI.KValue

noncomputable section

namespace Cert.Bridge

open Idealize.ShloMosaic Idealize.ShloMosaic.TcCoe Idealize.SL.Sem

/-- The reference's three products, by name. -/
def hostMM1 : (⟨Cert.KernelIdeal.S100000x128, .f32⟩ : BufTy).Contents (Elt Ideal) → (⟨Cert.KernelIdeal.S128x64, .f32⟩ : BufTy).Contents (Elt Ideal) →
    (⟨Cert.KernelIdeal.S100000x64, .f32⟩ : BufTy).Contents (Elt Ideal) :=
  fun l r => Host.dotGeneral (F := Ideal) (φ₁ := .f32) (φ₂ := .f32) Cert.ReferenceIdeal.dot_S100000x128_S128x64_S100000x64_1_0_0_1_n_n none l r
def hostMM2 : (⟨Cert.KernelIdeal.S100000x64, .f32⟩ : BufTy).Contents (Elt Ideal) → (⟨Cert.KernelIdeal.S64x32, .f32⟩ : BufTy).Contents (Elt Ideal) →
    (⟨Cert.KernelIdeal.S100000x32, .f32⟩ : BufTy).Contents (Elt Ideal) :=
  fun l r => Host.dotGeneral (F := Ideal) (φ₁ := .f32) (φ₂ := .f32) Cert.ReferenceIdeal.dot_S100000x64_S64x32_S100000x32_1_0_0_1_n_n none l r
def hostMM3 : (⟨Cert.KernelIdeal.S100000x32, .f32⟩ : BufTy).Contents (Elt Ideal) → (⟨Cert.KernelIdeal.S32x16, .f32⟩ : BufTy).Contents (Elt Ideal) →
    (⟨Cert.KernelIdeal.S100000x16, .f32⟩ : BufTy).Contents (Elt Ideal) :=
  fun l r => Host.dotGeneral (F := Ideal) (φ₁ := .f32) (φ₂ := .f32) Cert.ReferenceIdeal.dot_S100000x32_S32x16_S100000x16_1_0_0_1_n_n none l r

/-- The host's product of the input features with the first weights is the plain product. -/
theorem mm1_eq : hostMM1 = Cert.Dense.prod (a := 100000) (k := 128) (n := 64) := by
  funext l r
  exact Cert.Dense.dotGeneral_eq_prod (a := 100000) (k := 128) (n := 64) Cert.ReferenceIdeal.dot_S100000x128_S128x64_S100000x64_1_0_0_1_n_n rfl rfl rfl rfl rfl rfl l r

/-- The same for the second weights. -/
theorem mm2_eq : hostMM2 = Cert.Dense.prod (a := 100000) (k := 64) (n := 32) := by
  funext l r
  exact Cert.Dense.dotGeneral_eq_prod (a := 100000) (k := 64) (n := 32) Cert.ReferenceIdeal.dot_S100000x64_S64x32_S100000x32_1_0_0_1_n_n rfl rfl rfl rfl rfl rfl l r

/-- The same for the third weights. -/
theorem mm3_eq : hostMM3 = Cert.Dense.prod (a := 100000) (k := 32) (n := 16) := by
  funext l r
  exact Cert.Dense.dotGeneral_eq_prod (a := 100000) (k := 32) (n := 16) Cert.ReferenceIdeal.dot_S100000x32_S32x16_S100000x16_1_0_0_1_n_n rfl rfl rfl rfl rfl rfl l r

/-- The host's last layer is the rectified dense layer over the bias laid out as a row. -/
theorem dense_eq :
    Cert.Gcn.hostDense (F := Ideal) Cert.ReferenceIdeal.dot_S100000x112_S112x16_S100000x16_1_0_0_1_n_n
      = fun cat W b => Cert.Branch.act (a := 100000) (k := 112) (n := 16) cat W
          (shapeCast Cert.KernelIdeal.S1x16 b Cert.KernelIdeal.Gen.shapeCasts_S16_S1x16) := by
  funext cat W b
  rw [Cert.Dense.row_cast_eq_bcast (n := 16) b Cert.KernelIdeal.Gen.shapeCasts_S16_S1x16 Cert.KernelIdeal.Facts₀.bcast_S16_S1x16_1]
  exact Cert.Branch.host_act (a := 100000) (k := 112) (n := 16) Cert.ReferenceIdeal.dot_S100000x112_S112x16_S100000x16_1_0_0_1_n_n
    rfl rfl rfl rfl rfl rfl cat W _ Cert.KernelIdeal.Facts₀.bcast_S1x16_S100000x16_0_1 Cert.KernelIdeal.Facts₀.bcast_S_S100000x16

/-- THE BRIDGE: from memories that agree on the ten arguments, the reference's result is the kernel's. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.ValueP.res_main_v141 (F := Ideal) m' c = Cert.KernelIdeal.Fr.W14 (F := Ideal) m c Cert.KernelIdeal.main_v86 := by
  have hr : Cert.ReferenceIdeal.ValueP.res_main_v141 (F := Ideal) m' c
      = Cert.Gcn.net (F := Ideal) hostMM1 hostMM2 hostMM3
          (Cert.Gcn.hostDense Cert.ReferenceIdeal.dot_S100000x112_S112x16_S100000x16_1_0_0_1_n_n)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9)) :=
    Cert.ReferenceIdeal.RefValue.res_eq_net (F := Ideal) m' c
  rw [hr, Cert.KernelIdeal.Kv.w14_result, mm1_eq, mm2_eq, mm3_eq, dense_eq, h0, h1, h2, h3, h4, h5, h6, h7, h8, h9]
  rfl

end Cert.Bridge

end
-- ==== Proof.lean ====
/-
  The certificate: a graph network of three convolutions and a dense layer, whose matrix products a kernel forms block
  of rows by block of rows on the matrix unit, equals its reference, which forms them with whole-array dot_generals.

  The kernel program is four kernel regions among host operations.  Its frame (it runs to the end, faults nowhere,
  leaves its arguments as launched) is the run over its fourteen steps (Proof/K/Run.lean at the word level, Proof/KI/Run.lean
  on the extended reals: one text, read at two instances).  The reference is a line of host operations; its run reads
  its result back as one term of the arguments (Proof/RefRun.lean).  The idealized kernel program is the kernel
  program's own text read on the extended reals (no rewrite was applied), so that conjunct asks nothing.  On the
  extended reals both results are the network Cert.Gcn.net over the plain matrix product (Proof/Bridge.lean).
-/
import proofs.«109125_j11793980195110_1_alg».proof.Defs
import proofs.«109125_j11793980195110_1_alg».proof.Proof.K.Run
import proofs.«109125_j11793980195110_1_alg».proof.Proof.KI.Run
import proofs.«109125_j11793980195110_1_alg».proof.Proof.RefRun
import proofs.«109125_j11793980195110_1_alg».proof.Proof.Bridge
import proofs.«109125_j11793980195110_1_alg».proof.Proof.Gen.Pre_finite_inputs
import proofs.«109125_j11793980195110_1_alg».proof.Proof.Gen.Kernel
import proofs.«109125_j11793980195110_1_alg».proof.Proof.Gen.KernelIdeal
import proofs.«109125_j11793980195110_1_alg».proof.Proof.Gen.ReferenceIdeal
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Fr.frame m ρ

/-- So does the kernel program read on the extended reals. -/
theorem frame_ki : Cert.frame_KernelIdeal := fun m ρ _ => Cert.KernelIdeal.Fr.frame m ρ

/-- The reference runs and leaves its arguments as launched: its run, the result's value dropped. -/
theorem frame_ri : Cert.frame_ReferenceIdeal := fun m ρ _ =>
  (θ_run Cert.ReferenceIdeal.defs _ _).mono (fun _ h c => (h c).2) (Cert.ReferenceIdeal.ValueP.run (F := Ideal) m ρ)

/-- No operation was rewritten when the kernel program was read on the extended reals. -/
theorem preserves : Cert.preserves_Kernel_KernelIdeal := trivial

/-- From memories agreeing on the arguments both programs end with the same result array: the kernel's run leaves
    it at the last boundary's contents, the reference's at its composed term, and the two are one function of the
    arguments. -/
theorem algebraic : Cert.algebraic_KernelIdeal_ReferenceIdeal := by
  intro m ρ m' ρ' _ hagree
  refine ⟨fun c => Cert.KernelIdeal.Fr.W14 (F := Ideal) m c Cert.KernelIdeal.main_v86, Cert.KernelIdeal.Fr.run_val (F := Ideal) m ρ, ?_⟩
  refine (θ_run Cert.ReferenceIdeal.defs _ _).mono (fun _ h c => ⟨(h c).1.trans ?_, (h c).2⟩)
    (Cert.ReferenceIdeal.ValueP.run (F := Ideal) m' ρ')
  exact Cert.Bridge.result_eq m m' c (hagree c).1 (hagree c).2.1 (hagree c).2.2.1 (hagree c).2.2.2.1 (hagree c).2.2.2.2.1
    (hagree c).2.2.2.2.2.1 (hagree c).2.2.2.2.2.2.1 (hagree c).2.2.2.2.2.2.2.1 (hagree c).2.2.2.2.2.2.2.2.1 (hagree c).2.2.2.2.2.2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
